-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x12x784x64 : Shape := ⟨4, ![128, 12, 784, 64]⟩
abbrev S_ : Shape := ⟨0, ![]⟩

class Facts : Prop where
  bcast_S_S128x12x784x64 : S_.BroadcastsInDim S128x12x784x64 (![] : Fin 0 → Fin S128x12x784x64.rank)
  reducesTo_S128x12x784x64_S_d0_1_2_3 : S128x12x784x64.ReducesTo [0, 1, 2, 3] S_
  h_S_ : 0 < S_.numel

variable [Facts]

def fn {F : FTy → Type} [FloatOps F] (main_arg0 : FVec F S128x12x784x64 .f32) : IVec S_ 1 :=
  let main_v0 : FVec F S128x12x784x64 .f32 := Host.absf main_arg0
  let main_cst : FVec F S_ .f32 := constant S_ .f32 0x7F800000#32
  let main_v1 : FVec F S128x12x784x64 .f32 := broadcastInDim S128x12x784x64 ![] bcast_S_S128x12x784x64 main_cst
  let main_v2 : IVec S128x12x784x64 1 := cmpf .olt main_v0 main_v1
  let main_c : IVec S_ 1 := constantI S_ 1 1#1
  let main_v3 : IVec S_ 1 := (fun x v => Host.reduce IntOp.andi x v reducesTo_S128x12x784x64_S_d0_1_2_3 h_S_) main_v2 main_c
  main_v3
-- ==== Kernel.lean ====
abbrev S128x12x784x64 : Shape := ⟨4, ![128, 12, 784, 64]⟩
abbrev S128x12x50176 : Shape := ⟨3, ![128, 12, 50176]⟩
abbrev S16x12x3584 : Shape := ⟨3, ![16, 12, 3584]⟩
abbrev S4x4x12x3584 : Shape := ⟨4, ![4, 4, 12, 3584]⟩
abbrev S1x4x12x3584 : Shape := ⟨4, ![1, 4, 12, 3584]⟩
abbrev S3x4x12x3584 : Shape := ⟨4, ![3, 4, 12, 3584]⟩
abbrev S4x1x12x3584 : Shape := ⟨4, ![4, 1, 12, 3584]⟩
abbrev S4x3x12x3584 : Shape := ⟨4, ![4, 3, 12, 3584]⟩

abbrev nBuf : Space → Nat
  | .hbm => 4
  | .vmem => 4
  | .smem => 0
  | _ => 0

abbrev bufTy : (tb : Table) → Fin (tcTables nBuf tb) → BufTy
  | .hbm, ⟨0, _⟩ => ⟨S128x12x784x64, .f32⟩
  | .hbm, ⟨1, _⟩ => ⟨S128x12x50176, .f32⟩
  | .hbm, ⟨2, _⟩ => ⟨S128x12x50176, .f32⟩
  | .hbm, ⟨3, _⟩ => ⟨S128x12x784x64, .f32⟩
  | .local _ .vmem, ⟨0, _⟩ => ⟨S16x12x3584, .f32⟩
  | .local _ .vmem, ⟨1, _⟩ => ⟨S16x12x3584, .f32⟩
  | .local _ .vmem, ⟨2, _⟩ => ⟨S16x12x3584, .f32⟩
  | .local _ .vmem, ⟨3, _⟩ => ⟨S16x12x3584, .f32⟩
  | _, _ => ⟨S128x12x784x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 14], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x12x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x12x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S128x12x784x64_S128x12x50176 : S128x12x784x64.ShapeCasts S128x12x50176
  inb_S16x12x3584_S16x12x3584_0_0_0 : ∀ a, (![0, 0, 0] : Fin 3 → Nat) a + S16x12x3584.size a ≤ S16x12x3584.size a
  h_S16x12x3584 : 0 < S16x12x3584.numel
  shapeCasts_S16x12x3584_S16x12x3584 : S16x12x3584.ShapeCasts S16x12x3584
  shapeCasts_S16x12x3584_S4x4x12x3584 : S16x12x3584.ShapeCasts S4x4x12x3584
  iota_S4x4x12x3584_d0_w32 : S4x4x12x3584.Iotas .tc 32 [0]
  iota_S4x4x12x3584_d1_w32 : S4x4x12x3584.Iotas .tc 32 [1]
  iota_S4x4x12x3584_d2_w32 : S4x4x12x3584.Iotas .tc 32 [2]
  iota_S4x4x12x3584_d3_w32 : S4x4x12x3584.Iotas .tc 32 [3]
  slices_S4x4x12x3584_o1_0_0_0_S3x4x12x3584 : S4x4x12x3584.Slices ![1, 0, 0, 0] S3x4x12x3584
  concatenates_S3x4x12x3584_S1x4x12x3584_S4x4x12x3584_d0 : Shape.Concatenates [S3x4x12x3584, S1x4x12x3584] S4x4x12x3584 0
  slices_S4x4x12x3584_o0_0_0_0_S3x4x12x3584 : S4x4x12x3584.Slices ![0, 0, 0, 0] S3x4x12x3584
  concatenates_S1x4x12x3584_S3x4x12x3584_S4x4x12x3584_d0 : Shape.Concatenates [S1x4x12x3584, S3x4x12x3584] S4x4x12x3584 0
  slices_S4x4x12x3584_o0_1_0_0_S4x3x12x3584 : S4x4x12x3584.Slices ![0, 1, 0, 0] S4x3x12x3584
  concatenates_S4x3x12x3584_S4x1x12x3584_S4x4x12x3584_d1 : Shape.Concatenates [S4x3x12x3584, S4x1x12x3584] S4x4x12x3584 1
  slices_S4x4x12x3584_o0_0_0_0_S4x3x12x3584 : S4x4x12x3584.Slices ![0, 0, 0, 0] S4x3x12x3584
  concatenates_S4x1x12x3584_S4x3x12x3584_S4x4x12x3584_d1 : Shape.Concatenates [S4x1x12x3584, S4x3x12x3584] S4x4x12x3584 1
  shapeCasts_S4x4x12x3584_S16x12x3584 : S4x4x12x3584.ShapeCasts S16x12x3584
  shapeCasts_S128x12x50176_S128x12x784x64 : S128x12x50176.ShapeCasts S128x12x784x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x12x3584.size a ≤ S128x12x50176.size a
  hwx0_0 : ∀ i : grid0.Coords, EltTy.bits .f32 = 32 ∨ (Rect.block (s := S128x12x50176) S16x12x3584.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x12x3584.size a ≤ S128x12x50176.size a
  hwx0_1 : ∀ i : grid0.Coords, EltTy.bits .f32 = 32 ∨ (Rect.block (s := S128x12x50176) S16x12x3584.size (cc0_transform_1 i) (hinb0_1 i)).WholeWords (EltTy.packing .f32)

variable [Facts₀]

abbrev win0_0 : Pipeline.Window sig grid0 :=
  Pipeline.Window.ofSpec (Memref.whole main_v0) S16x12x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x12x3584.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x12x784x64 : Shape := ⟨4, ![128, 12, 784, 64]⟩
abbrev S8x16x12x784x64 : Shape := ⟨5, ![8, 16, 12, 784, 64]⟩
abbrev S8x16x12x64x784 : Shape := ⟨5, ![8, 16, 12, 64, 784]⟩
abbrev S8x4x4x768x784 : Shape := ⟨5, ![8, 4, 4, 768, 784]⟩
abbrev S_ : Shape := ⟨0, ![]⟩
abbrev S8x3x4x48x784 : Shape := ⟨5, ![8, 3, 4, 48, 784]⟩
abbrev S1 : Shape := ⟨1, ![1]⟩
abbrev S2 : Shape := ⟨1, ![2]⟩
abbrev S8x4x3x48x784 : Shape := ⟨5, ![8, 4, 3, 48, 784]⟩
abbrev S8x4x4x576x784 : Shape := ⟨5, ![8, 4, 4, 576, 784]⟩
abbrev S8x3x3x48x784 : Shape := ⟨5, ![8, 3, 3, 48, 784]⟩
abbrev S3 : Shape := ⟨1, ![3]⟩

abbrev nBuf : Space → Nat
  | .hbm => 77
  | .vmem => 0
  | .smem => 0
  | _ => 0

abbrev bufTy : (tb : Table) → Fin (tcTables nBuf tb) → BufTy
  | .hbm, ⟨0, _⟩ => ⟨S128x12x784x64, .f32⟩
  | .hbm, ⟨1, _⟩ => ⟨S8x16x12x784x64, .f32⟩
  | .hbm, ⟨2, _⟩ => ⟨S8x16x12x64x784, .f32⟩
  | .hbm, ⟨3, _⟩ => ⟨S8x4x4x768x784, .f32⟩
  | .hbm, ⟨4, _⟩ => ⟨S_, .f32⟩
  | .hbm, ⟨5, _⟩ => ⟨S8x4x4x768x784, .f32⟩
  | .hbm, ⟨6, _⟩ => ⟨S8x3x4x48x784, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S8x4x4x768x784, .f32⟩
  | .hbm, ⟨13, _⟩ => ⟨S8x3x4x48x784, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x4x4x768x784, .f32⟩
  | .hbm, ⟨20, _⟩ => ⟨S8x4x3x48x784, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S8x4x4x768x784, .f32⟩
  | .hbm, ⟨27, _⟩ => ⟨S8x4x3x48x784, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S8x4x4x768x784, .f32⟩
  | .hbm, ⟨34, _⟩ => ⟨S8x4x4x576x784, .f32⟩
  | .hbm, ⟨35, _⟩ => ⟨S_, .i32⟩
  | .hbm, ⟨36, _⟩ => ⟨S1, .i32⟩
  | .hbm, ⟨37, _⟩ => ⟨S8x4x4x768x784, .f32⟩
  | .hbm, ⟨38, _⟩ => ⟨S8x3x3x48x784, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S3, .i32⟩
  | .hbm, ⟨46, _⟩ => ⟨S8x4x4x768x784, .f32⟩
  | .hbm, ⟨47, _⟩ => ⟨S8x3x3x48x784, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S3, .i32⟩
  | .hbm, ⟨55, _⟩ => ⟨S8x4x4x768x784, .f32⟩
  | .hbm, ⟨56, _⟩ => ⟨S8x3x3x48x784, .f32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S3, .i32⟩
  | .hbm, ⟨64, _⟩ => ⟨S8x4x4x768x784, .f32⟩
  | .hbm, ⟨65, _⟩ => ⟨S8x3x3x48x784, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S3, .i32⟩
  | .hbm, ⟨73, _⟩ => ⟨S8x4x4x768x784, .f32⟩
  | .hbm, ⟨74, _⟩ => ⟨S8x16x12x64x784, .f32⟩
  | .hbm, ⟨75, _⟩ => ⟨S8x16x12x784x64, .f32⟩
  | .hbm, ⟨76, _⟩ => ⟨S128x12x784x64, .f32⟩
  | _, _ => ⟨S128x12x784x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_c_9 : Ref sig .tc := ⟨.hbm, 41, rfl⟩
abbrev main_v29 : Ref sig .tc := ⟨.hbm, 42, rfl⟩
abbrev main_c_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_11 : Ref sig .tc := ⟨.hbm, 48, rfl⟩
abbrev main_v34 : Ref sig .tc := ⟨.hbm, 49, rfl⟩
abbrev main_c_12 : Ref sig .tc := ⟨.hbm, 50, rfl⟩
abbrev main_v35 : Ref sig .tc := ⟨.hbm, 51, rfl⟩
abbrev main_c_13 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_14 : Ref sig .tc := ⟨.hbm, 57, rfl⟩
abbrev main_v40 : Ref sig .tc := ⟨.hbm, 58, rfl⟩
abbrev main_c_15 : Ref sig .tc := ⟨.hbm, 59, rfl⟩
abbrev main_v41 : Ref sig .tc := ⟨.hbm, 60, rfl⟩
abbrev main_c_16 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_17 : Ref sig .tc := ⟨.hbm, 66, rfl⟩
abbrev main_v46 : Ref sig .tc := ⟨.hbm, 67, rfl⟩
abbrev main_c_18 : Ref sig .tc := ⟨.hbm, 68, rfl⟩
abbrev main_v47 : Ref sig .tc := ⟨.hbm, 69, rfl⟩
abbrev main_c_19 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  shapeCasts_S128x12x784x64_S8x16x12x784x64 : S128x12x784x64.ShapeCasts S8x16x12x784x64
  transposes_S8x16x12x784x64_S8x16x12x64x784_0_1_2_4_3 : S8x16x12x784x64.Transposes [0, 1, 2, 4, 3] S8x16x12x64x784
  shapeCasts_S8x16x12x64x784_S8x4x4x768x784 : S8x16x12x64x784.ShapeCasts S8x4x4x768x784
  bcast_S_S8x4x4x768x784 : S_.BroadcastsInDim S8x4x4x768x784 (![] : Fin 0 → Fin S8x4x4x768x784.rank)
  slices_S8x4x4x768x784_S8x3x4x48x784_0_1_0_0_0 : S8x4x4x768x784.Slices ![0, 1, 0, 0, 0] S8x3x4x48x784
  bcast_S_S1 : S_.BroadcastsInDim S1 (![] : Fin 0 → Fin S1.rank)
  concatenates_S1_S1_S2_d0 : Shape.Concatenates [S1, S1] S2 0
  slices_S8x4x4x768x784_S8x3x4x48x784_0_0_0_48_0 : S8x4x4x768x784.Slices ![0, 0, 0, 48, 0] S8x3x4x48x784
  slices_S8x4x4x768x784_S8x4x3x48x784_0_0_1_96_0 : S8x4x4x768x784.Slices ![0, 0, 1, 96, 0] S8x4x3x48x784
  slices_S8x4x4x768x784_S8x4x3x48x784_0_0_0_144_0 : S8x4x4x768x784.Slices ![0, 0, 0, 144, 0] S8x4x3x48x784
  slices_S8x4x4x768x784_S8x4x4x576x784_0_0_0_192_0 : S8x4x4x768x784.Slices ![0, 0, 0, 192, 0] S8x4x4x576x784
  slices_S8x4x4x768x784_S8x3x3x48x784_0_0_0_192_0 : S8x4x4x768x784.Slices ![0, 0, 0, 192, 0] S8x3x3x48x784
  concatenates_S1_S1_S1_S3_d0 : Shape.Concatenates [S1, S1, S1] S3 0
  slices_S8x4x4x768x784_S8x3x3x48x784_0_1_1_240_0 : S8x4x4x768x784.Slices ![0, 1, 1, 240, 0] S8x3x3x48x784
  slices_S8x4x4x768x784_S8x3x3x48x784_0_0_1_288_0 : S8x4x4x768x784.Slices ![0, 0, 1, 288, 0] S8x3x3x48x784
  slices_S8x4x4x768x784_S8x3x3x48x784_0_1_0_336_0 : S8x4x4x768x784.Slices ![0, 1, 0, 336, 0] S8x3x3x48x784
  shapeCasts_S8x4x4x768x784_S8x16x12x64x784 : S8x4x4x768x784.ShapeCasts S8x16x12x64x784
  transposes_S8x16x12x64x784_S8x16x12x784x64_0_1_2_4_3 : S8x16x12x64x784.Transposes [0, 1, 2, 4, 3] S8x16x12x784x64
  shapeCasts_S8x16x12x784x64_S128x12x784x64 : S8x16x12x784x64.ShapeCasts S128x12x784x64
  scatter_S8x4x4x768x784_S2_S8x3x4x48x784_01234_n_13_0_wf : ScatterDims.WF S8x4x4x768x784 S2 S8x3x4x48x784 [0, 1, 2, 3, 4] [] [1, 3] 0
  scatter_S8x4x4x768x784_S2_S8x4x3x48x784_01234_n_23_0_wf : ScatterDims.WF S8x4x4x768x784 S2 S8x4x3x48x784 [0, 1, 2, 3, 4] [] [2, 3] 0
  scatter_S8x4x4x768x784_S1_S8x4x4x576x784_01234_n_3_0_wf : ScatterDims.WF S8x4x4x768x784 S1 S8x4x4x576x784 [0, 1, 2, 3, 4] [] [3] 0
  scatter_S8x4x4x768x784_S3_S8x3x3x48x784_01234_n_123_0_wf : ScatterDims.WF S8x4x4x768x784 S3 S8x3x3x48x784 [0, 1, 2, 3, 4] [] [1, 2, 3] 0

variable [Facts₀]

def scatter_S8x4x4x768x784_S2_S8x3x4x48x784_01234_n_13_0 : ScatterDims S8x4x4x768x784 S2 S8x3x4x48x784 where
  updateWindowDims := [0, 1, 2, 3, 4]
  insertedWindowDims := []
  scatterDimsToOperandDims := [1, 3]
  indexVectorDim := 0
  wf := scatter_S8x4x4x768x784_S2_S8x3x4x48x784_01234_n_13_0_wf
def scatter_S8x4x4x768x784_S2_S8x4x3x48x784_01234_n_23_0 : ScatterDims S8x4x4x768x784 S2 S8x4x3x48x784 where
  updateWindowDims := [0, 1, 2, 3, 4]
  insertedWindowDims := []
  scatterDimsToOperandDims := [2, 3]
  indexVectorDim := 0
  wf := scatter_S8x4x4x768x784_S2_S8x4x3x48x784_01234_n_23_0_wf
def scatter_S8x4x4x768x784_S1_S8x4x4x576x784_01234_n_3_0 : ScatterDims S8x4x4x768x784 S1 S8x4x4x576x784 where
  updateWindowDims := [0, 1, 2, 3, 4]
  insertedWindowDims := []
  scatterDimsToOperandDims := [3]
  indexVectorDim := 0
  wf := scatter_S8x4x4x768x784_S1_S8x4x4x576x784_01234_n_3_0_wf
def scatter_S8x4x4x768x784_S3_S8x3x3x48x784_01234_n_123_0 : ScatterDims S8x4x4x768x784 S3 S8x3x3x48x784 where
  updateWindowDims := [0, 1, 2, 3, 4]
  insertedWindowDims := []
  scatterDimsToOperandDims := [1, 2, 3]
  indexVectorDim := 0
  wf := scatter_S8x4x4x768x784_S3_S8x3x3x48x784_01234_n_123_0_wf

class Facts : Prop extends Facts₀ where

variable [Facts]
-- ==== Proof.KernelShifts.lean ====
/-
  A step along one grid axis of a block, filled at the edge, read at an index.

  The block is viewed as (h, w, m, lane) = (4, 4, 12, 3584). "Take the neighbour one step further along h"
  is: drop the first slab along h and append a slab of the fill value; "one step back" is: prepend the fill
  slab and drop the last slab. The same along w. At an index the result is the neighbour's value when the
  neighbour is inside the grid and the fill value otherwise.
-/
import proofs.«147602_j49512382988369_2_alg».proof.Proof.Gen.KernelIdeal
import Idealize.ShloMosaic.Lib.ValueIdx
import Idealize.ShloMosaic.Lib.Pipeline.Value

namespace Cert.SpatialShift.Kernel

open Idealize.ShloMosaic Idealize.ShloMosaic.ValueIdx Cert.KernelIdeal

variable {α : Type}

/-- The slab below: at `(h, w)` the value at `(h + 1, w)`, the fill at `h = 3`. -/
theorem step_h_succ (v : S4x4x12x3584.Idx → α) (z : α)
    (hs : S4x4x12x3584.Slices ![1, 0, 0, 0] S3x4x12x3584)
    (hc : Shape.Concatenates [S3x4x12x3584, S1x4x12x3584] S4x4x12x3584 0)
    (h w : Fin 4) (mm : Fin 12) (l : Fin 3584) :
    concatenate S4x4x12x3584 0 [⟨S3x4x12x3584, extractStridedSlice S3x4x12x3584 ![1, 0, 0, 0] v hs⟩, ⟨S1x4x12x3584, broadcast S1x4x12x3584 z⟩] hc (ix4 h w mm l)
      = if hx : h.val < 3 then v (ix4 ⟨h.val + 1, by omega⟩ w mm l) else z := by
  by_cases hx : h.val < 3
  · rw [dif_pos hx]
    refine (concatenate_pair_apply_left _ _ _ hc (ix4 h w mm l) rfl (ix4 (⟨h.val, hx⟩ : Fin 3) w mm l) ?_).trans ?_
    · intro b
      match b with
      | ⟨0, _⟩ => rfl
      | ⟨1, _⟩ => rfl
      | ⟨2, _⟩ => rfl
      | ⟨3, _⟩ => rfl
    · exact extractStridedSlice_apply _ v hs _ (ix4 ⟨h.val + 1, by omega⟩ w mm l) (fun a => match a with
        | ⟨0, _⟩ => by show h.val + 1 = 1 + h.val; omega
        | ⟨1, _⟩ => by show w.val = 0 + w.val; omega
        | ⟨2, _⟩ => by show mm.val = 0 + mm.val; omega
        | ⟨3, _⟩ => by show l.val = 0 + l.val; omega)
  · rw [dif_neg hx]
    refine (concatenate_pair_apply_right _ _ _ hc (ix4 h w mm l) rfl rfl (ix4 (⟨0, by omega⟩ : Fin 1) w mm l) ?_ ?_).trans rfl
    · intro b hb
      match b with
      | ⟨0, _⟩ => exact absurd rfl hb
      | ⟨1, _⟩ => rfl
      | ⟨2, _⟩ => rfl
      | ⟨3, _⟩ => rfl
    · show 0 + 3 = h.val; omega

/-- The slab above: at `(h, w)` the value at `(h − 1, w)`, the fill at `h = 0`. -/
theorem step_h_pred (v : S4x4x12x3584.Idx → α) (z : α)
    (hs : S4x4x12x3584.Slices ![0, 0, 0, 0] S3x4x12x3584)
    (hc : Shape.Concatenates [S1x4x12x3584, S3x4x12x3584] S4x4x12x3584 0)
    (h w : Fin 4) (mm : Fin 12) (l : Fin 3584) :
    concatenate S4x4x12x3584 0 [⟨S1x4x12x3584, broadcast S1x4x12x3584 z⟩, ⟨S3x4x12x3584, extractStridedSlice S3x4x12x3584 ![0, 0, 0, 0] v hs⟩] hc (ix4 h w mm l)
      = if hx : 1 ≤ h.val then v (ix4 ⟨h.val - 1, by omega⟩ w mm l) else z := by
  by_cases hx : 1 ≤ h.val
  · rw [dif_pos hx]
    refine (concatenate_pair_apply_right _ _ _ hc (ix4 h w mm l) rfl rfl (ix4 (⟨h.val - 1, by omega⟩ : Fin 3) w mm l) ?_ ?_).trans ?_
    · intro b hb
      match b with
      | ⟨0, _⟩ => exact absurd rfl hb
      | ⟨1, _⟩ => rfl
      | ⟨2, _⟩ => rfl
      | ⟨3, _⟩ => rfl
    · show h.val - 1 + 1 = h.val; omega
    · exact extractStridedSlice_apply _ v hs _ (ix4 ⟨h.val - 1, by omega⟩ w mm l) (fun a => match a with
        | ⟨0, _⟩ => by show h.val - 1 = 0 + (h.val - 1); omega
        | ⟨1, _⟩ => by show w.val = 0 + w.val; omega
        | ⟨2, _⟩ => by show mm.val = 0 + mm.val; omega
        | ⟨3, _⟩ => by show l.val = 0 + l.val; omega)
  · rw [dif_neg hx]
    refine (concatenate_pair_apply_left _ _ _ hc (ix4 h w mm l) rfl (ix4 (⟨0, by omega⟩ : Fin 1) w mm l) ?_).trans rfl
    intro b
    match b with
    | ⟨0, _⟩ => (show 0 = h.val; omega)
    | ⟨1, _⟩ => rfl
    | ⟨2, _⟩ => rfl
    | ⟨3, _⟩ => rfl

/-- The column to the right: at `(h, w)` the value at `(h, w + 1)`, the fill at `w = 3`. -/
theorem step_w_succ (v : S4x4x12x3584.Idx → α) (z : α)
    (hs : S4x4x12x3584.Slices ![0, 1, 0, 0] S4x3x12x3584)
    (hc : Shape.Concatenates [S4x3x12x3584, S4x1x12x3584] S4x4x12x3584 1)
    (h w : Fin 4) (mm : Fin 12) (l : Fin 3584) :
    concatenate S4x4x12x3584 1 [⟨S4x3x12x3584, extractStridedSlice S4x3x12x3584 ![0, 1, 0, 0] v hs⟩, ⟨S4x1x12x3584, broadcast S4x1x12x3584 z⟩] hc (ix4 h w mm l)
      = if hx : w.val < 3 then v (ix4 h ⟨w.val + 1, by omega⟩ mm l) else z := by
  by_cases hx : w.val < 3
  · rw [dif_pos hx]
    refine (concatenate_pair_apply_left _ _ _ hc (ix4 h w mm l) rfl (ix4 h (⟨w.val, hx⟩ : Fin 3) mm l) ?_).trans ?_
    · intro b
      match b with
      | ⟨0, _⟩ => rfl
      | ⟨1, _⟩ => rfl
      | ⟨2, _⟩ => rfl
      | ⟨3, _⟩ => rfl
    · exact extractStridedSlice_apply _ v hs _ (ix4 h ⟨w.val + 1, by omega⟩ mm l) (fun a => match a with
        | ⟨0, _⟩ => by show h.val = 0 + h.val; omega
        | ⟨1, _⟩ => by show w.val + 1 = 1 + w.val; omega
        | ⟨2, _⟩ => by show mm.val = 0 + mm.val; omega
        | ⟨3, _⟩ => by show l.val = 0 + l.val; omega)
  · rw [dif_neg hx]
    refine (concatenate_pair_apply_right _ _ _ hc (ix4 h w mm l) rfl rfl (ix4 h (⟨0, by omega⟩ : Fin 1) mm l) ?_ ?_).trans rfl
    · intro b hb
      match b with
      | ⟨0, _⟩ => rfl
      | ⟨1, _⟩ => exact absurd rfl hb
      | ⟨2, _⟩ => rfl
      | ⟨3, _⟩ => rfl
    · show 0 + 3 = w.val; omega

/-- The column to the left: at `(h, w)` the value at `(h, w − 1)`, the fill at `w = 0`. -/
theorem step_w_pred (v : S4x4x12x3584.Idx → α) (z : α)
    (hs : S4x4x12x3584.Slices ![0, 0, 0, 0] S4x3x12x3584)
    (hc : Shape.Concatenates [S4x1x12x3584, S4x3x12x3584] S4x4x12x3584 1)
    (h w : Fin 4) (mm : Fin 12) (l : Fin 3584) :
    concatenate S4x4x12x3584 1 [⟨S4x1x12x3584, broadcast S4x1x12x3584 z⟩, ⟨S4x3x12x3584, extractStridedSlice S4x3x12x3584 ![0, 0, 0, 0] v hs⟩] hc (ix4 h w mm l)
      = if hx : 1 ≤ w.val then v (ix4 h ⟨w.val - 1, by omega⟩ mm l) else z := by
  by_cases hx : 1 ≤ w.val
  · rw [dif_pos hx]
    refine (concatenate_pair_apply_right _ _ _ hc (ix4 h w mm l) rfl rfl (ix4 h (⟨w.val - 1, by omega⟩ : Fin 3) mm l) ?_ ?_).trans ?_
    · intro b hb
      match b with
      | ⟨0, _⟩ => rfl
      | ⟨1, _⟩ => exact absurd rfl hb
      | ⟨2, _⟩ => rfl
      | ⟨3, _⟩ => rfl
    · show w.val - 1 + 1 = w.val; omega
    · exact extractStridedSlice_apply _ v hs _ (ix4 h ⟨w.val - 1, by omega⟩ mm l) (fun a => match a with
        | ⟨0, _⟩ => by show h.val = 0 + h.val; omega
        | ⟨1, _⟩ => by show w.val - 1 = 0 + (w.val - 1); omega
        | ⟨2, _⟩ => by show mm.val = 0 + mm.val; omega
        | ⟨3, _⟩ => by show l.val = 0 + l.val; omega)
  · rw [dif_neg hx]
    refine (concatenate_pair_apply_left _ _ _ hc (ix4 h w mm l) rfl (ix4 h (⟨0, by omega⟩ : Fin 1) mm l) ?_).trans rfl
    intro b
    match b with
    | ⟨0, _⟩ => rfl
    | ⟨1, _⟩ => (show 0 = w.val; omega)
    | ⟨2, _⟩ => rfl
    | ⟨3, _⟩ => rfl

end Cert.SpatialShift.Kernel
-- ==== Proof.Spec.lean ====
/-
  The spatial shift as one function of the argument array.

  The argument is an array over (n, m, t, c) with n = b·16 + h·4 + w: for each of the 8 groups b, sixteen
  "segments" laid out as a 4 × 4 grid (h, w). A channel is the pair (m, c), numbered ch = m·64 + c, 0 ≤ ch < 768.
  The channels are cut into runs of 48: the first four runs are moved by one grid step along h or along w and
  filled with the zero value where the step leaves the grid; the next four runs are moved by one diagonal step
  and keep their own value where the step leaves the grid; every later channel is kept.
  `sel` states the rule on one grid of values; `shifted` applies it to the array.
-/
import Idealize.ShloMosaic.PureOps
import Idealize.ShloMosaic.Lib.ValueIdx

namespace Cert.SpatialShift

open Idealize.ShloMosaic Idealize.ShloMosaic.ValueIdx

variable {α : Type}

/-- The value at grid position `(h, w)` after the shift, for channel number `ch`, of a grid whose values are
    `g h' w'`; `z` is the fill. Runs of 48 channels, in order: take the value one step down in `h`
    (fill at `h = 3`), one step up (fill at `h = 0`), one step right in `w` (fill at `w = 3`), one step left
    (fill at `w = 0`); then the four diagonal neighbours (up-left, down-right, up-right, down-left), each
    keeping the position's own value where the neighbour is outside the grid; from channel 384 on, the position's
    own value. -/
def sel (z : α) (g : Fin 4 → Fin 4 → α) (ch : Nat) (h w : Fin 4) : α :=
  if ch < 48 then (if hh : h.val < 3 then g ⟨h.val + 1, by omega⟩ w else z)
  else if ch < 96 then (if hh : 1 ≤ h.val then g ⟨h.val - 1, by omega⟩ w else z)
  else if ch < 144 then (if hw : w.val < 3 then g h ⟨w.val + 1, by omega⟩ else z)
  else if ch < 192 then (if hw : 1 ≤ w.val then g h ⟨w.val - 1, by omega⟩ else z)
  else if ch < 240 then
    (if hb : 1 ≤ h.val ∧ 1 ≤ w.val then g ⟨h.val - 1, by omega⟩ ⟨w.val - 1, by omega⟩ else g h w)
  else if ch < 288 then
    (if hb : h.val < 3 ∧ w.val < 3 then g ⟨h.val + 1, by omega⟩ ⟨w.val + 1, by omega⟩ else g h w)
  else if ch < 336 then
    (if hb : 1 ≤ h.val ∧ w.val < 3 then g ⟨h.val - 1, by omega⟩ ⟨w.val + 1, by omega⟩ else g h w)
  else if ch < 384 then
    (if hb : h.val < 3 ∧ 1 ≤ w.val then g ⟨h.val + 1, by omega⟩ ⟨w.val - 1, by omega⟩ else g h w)
  else g h w

/-- The array's shape: (n, m, t, c) = (128, 12, 784, 64). -/
abbrev SX : Shape := ⟨4, ![128, 12, 784, 64]⟩

/-- Segment `(h', w')` of the group that row `n` belongs to: row `(n / 16)·16 + h'·4 + w'`. -/
def segRow (n : Fin 128) (h' w' : Fin 4) : Fin 128 :=
  ⟨n.val / 16 * 16 + (h'.val * 4 + w'.val), by omega⟩

/-- The shifted array: at `(n, m, t, c)` the rule `sel` for channel `m·64 + c` at the grid position
    `(n % 16 / 4, n % 4)` of row `n`'s group, over that group's sixteen rows at the same `(m, t, c)`. -/
def shifted (z : α) (x : SX.Idx → α) : SX.Idx → α := fun i =>
  sel z (fun h' w' => x (ix4 (segRow (i 0) h' w') (i 1) (i 2) (i 3)))
    ((i 1).val * 64 + (i 3).val)
    ⟨(i 0).val % 16 / 4, by omega⟩ ⟨(i 0).val % 4, by omega⟩

end Cert.SpatialShift
-- ==== Proof.KernelWords.lean ====
/-
  The integer words of the shift's body, as plain facts about 32-bit words.

  The body numbers a lane's channel as  m·64 + (lane AND 63)  (the lane index within a block is  t'·64 + c,
  so the AND recovers c), compares that number against the run boundaries 48, 96, …, 384 with SIGNED
  comparisons, and picks a step (+1, −1 or 0, as words) along each grid axis. Nothing wraps: the channel
  number is below 768.
-/
import Idealize.ShloMosaic.PureOps
import Idealize.ShloMosaic.Lib.ValueIdx

namespace Cert.SpatialShift.Words

open Idealize.ShloMosaic Idealize.ShloMosaic.ValueIdx

/-- `lane AND 63` is the lane's residue mod 64. -/
theorem and63 (l : Nat) : BitVec.ofNat 32 l &&& 63#32 = BitVec.ofNat 32 (l % 64) := by
  apply BitVec.eq_of_toNat_eq
  rw [BitVec.toNat_and]
  simp only [BitVec.toNat_ofNat]
  have e : (63 % 2 ^ 32 : Nat) = 2 ^ 6 - 1 := by norm_num
  rw [e, Nat.and_two_pow_sub_one_eq_mod]
  omega

/-- The channel word  m·64 + (lane AND 63)  is the word of the number  m·64 + lane % 64. -/
theorem chan_word (m l : Nat) :
    IntOp.addi (IntOp.muli (BitVec.ofNat 32 m) 64#32) (IntOp.andi (BitVec.ofNat 32 l) 63#32)
      = BitVec.ofNat 32 (m * 64 + l % 64) := by
  unfold IntOp.addi IntOp.muli IntOp.andi
  rw [and63, BitVec.ofNat_mul_ofNat, BitVec.ofNat_add_ofNat]

/-- A small number's word read signed is the number. -/
theorem toInt_small (n : Nat) (hn : n < 2 ^ 31) : (BitVec.ofNat 32 n).toInt = (n : Int) := by
  rw [BitVec.toInt_eq_toNat_of_lt (by rw [BitVec.toNat_ofNat]; omega), BitVec.toNat_ofNat]
  congr 1; omega

/-- Signed "less than" between the words of two small numbers is "less than" between the numbers. -/
theorem slt_small (n k : Nat) (hn : n < 2 ^ 31) (hk : k < 2 ^ 31) :
    IntOp.cmpi .slt (BitVec.ofNat 32 n) (BitVec.ofNat 32 k) = if n < k then 1#1 else 0#1 := by
  unfold IntOp.cmpi
  show BitVec.ofBool ((BitVec.ofNat 32 n).slt (BitVec.ofNat 32 k)) = _
  rw [BitVec.slt_eq_decide, toInt_small n hn, toInt_small k hk]
  by_cases h : n < k
  · rw [if_pos h]; have : ((n : Int) < (k : Int)) := by omega
    simp [this]
  · rw [if_neg h]; have : ¬ ((n : Int) < (k : Int)) := by omega
    simp [this]

/-- Signed "greater or equal" likewise. -/
theorem sge_small (n k : Nat) (hn : n < 2 ^ 31) (hk : k < 2 ^ 31) :
    IntOp.cmpi .sge (BitVec.ofNat 32 n) (BitVec.ofNat 32 k) = if k ≤ n then 1#1 else 0#1 := by
  unfold IntOp.cmpi
  show BitVec.ofBool ((BitVec.ofNat 32 k).sle (BitVec.ofNat 32 n)) = _
  rw [BitVec.sle_eq_decide, toInt_small n hn, toInt_small k hk]
  by_cases h : k ≤ n
  · rw [if_pos h]; have : ((k : Int) ≤ (n : Int)) := by omega
    simp [this]
  · rw [if_neg h]; have : ¬ ((k : Int) ≤ (n : Int)) := by omega
    simp [this]

/-- Equality of a grid coordinate's word with a small literal. -/
theorem eq_small (n k : Nat) (hn : n < 2 ^ 32) (hk : k < 2 ^ 32) :
    IntOp.cmpi .eq (BitVec.ofNat 32 n) (BitVec.ofNat 32 k) = if n = k then 1#1 else 0#1 := by
  unfold IntOp.cmpi
  show BitVec.ofBool (BitVec.ofNat 32 n == BitVec.ofNat 32 k) = _
  by_cases h : n = k
  · subst h; simp
  · rw [if_neg h]
    have : ¬ (BitVec.ofNat 32 n = BitVec.ofNat 32 k) := by
      intro e; apply h
      have := congrArg BitVec.toNat e
      simp only [BitVec.toNat_ofNat] at this; omega
    have hb : (BitVec.ofNat 32 n == BitVec.ofNat 32 k) = false := beq_eq_false_iff_ne.2 this
    rw [hb]; rfl

end Cert.SpatialShift.Words
-- ==== Proof.KernelModel.lean ====
/-
  The shift's body at one grid position, as the body computes it, is the rule `sel`.

  The body works in two stages: first a step along h chosen by the word `dh` (+1: take the row below, filling
  the last row; −1: the row above, filling the first; 0: stay), then on the result a step along w chosen by
  `dw` in the same way; finally, for the diagonal runs only (channels 192 … 383), a position whose step
  leaves the grid on either axis gets its own value back. `dh`, `dw` and the diagonal flag depend on the channel
  number alone, so the stage-one values that stage two reads from the neighbouring column use the same words.
-/
import proofs.«147602_j49512382988369_2_alg».proof.Proof.Spec
import proofs.«147602_j49512382988369_2_alg».proof.Proof.KernelWords

namespace Cert.SpatialShift.Model

open Idealize.ShloMosaic Idealize.ShloMosaic.ValueIdx Cert.SpatialShift Cert.SpatialShift.Words

variable {α : Type}

/-- The step along h as a word, from the channel word: +1, −1, 0, 0, −1, +1, −1, +1 on the eight runs, else 0. -/
def dhW (g : BitVec 32) : BitVec 32 :=
  Scalar.select (IntOp.cmpi .slt g 48#32) 1#32
   (Scalar.select (IntOp.cmpi .slt g 96#32) 4294967295#32
    (Scalar.select (IntOp.cmpi .slt g 144#32) 0#32
     (Scalar.select (IntOp.cmpi .slt g 192#32) 0#32
      (Scalar.select (IntOp.cmpi .slt g 240#32) 4294967295#32
       (Scalar.select (IntOp.cmpi .slt g 288#32) 1#32
        (Scalar.select (IntOp.cmpi .slt g 336#32) 4294967295#32
         (Scalar.select (IntOp.cmpi .slt g 384#32) 1#32 0#32)))))))

/-- The step along w as a word: 0, 0, +1, −1, −1, +1, +1, −1 on the eight runs, else 0. -/
def dwW (g : BitVec 32) : BitVec 32 :=
  Scalar.select (IntOp.cmpi .slt g 48#32) 0#32
   (Scalar.select (IntOp.cmpi .slt g 96#32) 0#32
    (Scalar.select (IntOp.cmpi .slt g 144#32) 1#32
     (Scalar.select (IntOp.cmpi .slt g 192#32) 4294967295#32
      (Scalar.select (IntOp.cmpi .slt g 240#32) 4294967295#32
       (Scalar.select (IntOp.cmpi .slt g 288#32) 1#32
        (Scalar.select (IntOp.cmpi .slt g 336#32) 1#32
         (Scalar.select (IntOp.cmpi .slt g 384#32) 4294967295#32 0#32)))))))

/-- Stage one at column `w'`: the step along h. -/
def stage1 (z : α) (g : Fin 4 → Fin 4 → α) (dh : BitVec 32) (h w' : Fin 4) : α :=
  Scalar.select (IntOp.cmpi .eq dh 1#32) (if hh : h.val < 3 then g ⟨h.val + 1, by omega⟩ w' else z)
    (Scalar.select (IntOp.cmpi .eq dh 4294967295#32) (if hh : 1 ≤ h.val then g ⟨h.val - 1, by omega⟩ w' else z)
      (g h w'))

/-- Stage two: the step along w over stage one's values. -/
def stage2 (z : α) (g : Fin 4 → Fin 4 → α) (dh dw : BitVec 32) (h w : Fin 4) : α :=
  Scalar.select (IntOp.cmpi .eq dw 1#32) (if hw : w.val < 3 then stage1 z g dh h ⟨w.val + 1, by omega⟩ else z)
    (Scalar.select (IntOp.cmpi .eq dw 4294967295#32)
      (if hw : 1 ≤ w.val then stage1 z g dh h ⟨w.val - 1, by omega⟩ else z)
      (stage1 z g dh h w))

/-- The body's value at grid position `(h, w)` from the channel word `cw`. -/
def body (z : α) (g : Fin 4 → Fin 4 → α) (cw : BitVec 32) (h w : Fin 4) : α :=
  Scalar.select
    (IntOp.andi (IntOp.andi (IntOp.cmpi .sge cw 192#32) (IntOp.cmpi .slt cw 384#32))
      (IntOp.ori
        (IntOp.ori (IntOp.andi (IntOp.cmpi .eq (dhW cw) 1#32) (IntOp.cmpi .eq (BitVec.ofNat 32 h.val) 3#32))
          (IntOp.andi (IntOp.cmpi .eq (dhW cw) 4294967295#32) (IntOp.cmpi .eq (BitVec.ofNat 32 h.val) 0#32)))
        (IntOp.ori (IntOp.andi (IntOp.cmpi .eq (dwW cw) 1#32) (IntOp.cmpi .eq (BitVec.ofNat 32 w.val) 3#32))
          (IntOp.andi (IntOp.cmpi .eq (dwW cw) 4294967295#32) (IntOp.cmpi .eq (BitVec.ofNat 32 w.val) 0#32)))))
    (g h w) (stage2 z g (dhW cw) (dwW cw) h w)

/-- A select on a decided comparison is the `if`. -/
theorem select_ite (p : Prop) [Decidable p] (a b : α) :
    Scalar.select (if p then 1#1 else 0#1) a b = if p then a else b := by
  by_cases hp : p
  · rw [if_pos hp, if_pos hp]; exact select_one a b
  · rw [if_neg hp, if_neg hp]; exact select_zero a b

theorem bit_and (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem bit_or (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

/-- The step words of a channel number below 768, run by run. -/
theorem dhW_val (ch : Nat) (hch : ch < 768) :
    dhW (BitVec.ofNat 32 ch) =
      if ch < 48 then 1#32 else if ch < 96 then 4294967295#32 else if ch < 144 then 0#32 else if ch < 192 then 0#32
      else if ch < 240 then 4294967295#32 else if ch < 288 then 1#32 else if ch < 336 then 4294967295#32
      else if ch < 384 then 1#32 else 0#32 := by
  unfold dhW
  simp only [slt_small ch 48 (by omega) (by norm_num), slt_small ch 96 (by omega) (by norm_num),
    slt_small ch 144 (by omega) (by norm_num), slt_small ch 192 (by omega) (by norm_num),
    slt_small ch 240 (by omega) (by norm_num), slt_small ch 288 (by omega) (by norm_num),
    slt_small ch 336 (by omega) (by norm_num), slt_small ch 384 (by omega) (by norm_num), select_ite]

theorem dwW_val (ch : Nat) (hch : ch < 768) :
    dwW (BitVec.ofNat 32 ch) =
      if ch < 48 then 0#32 else if ch < 96 then 0#32 else if ch < 144 then 1#32 else if ch < 192 then 4294967295#32
      else if ch < 240 then 4294967295#32 else if ch < 288 then 1#32 else if ch < 336 then 1#32
      else if ch < 384 then 4294967295#32 else 0#32 := by
  unfold dwW
  simp only [slt_small ch 48 (by omega) (by norm_num), slt_small ch 96 (by omega) (by norm_num),
    slt_small ch 144 (by omega) (by norm_num), slt_small ch 192 (by omega) (by norm_num),
    slt_small ch 240 (by omega) (by norm_num), slt_small ch 288 (by omega) (by norm_num),
    slt_small ch 336 (by omega) (by norm_num), slt_small ch 384 (by omega) (by norm_num), select_ite]

theorem and0l (x : BitVec 1) : IntOp.andi (0#1) x = 0#1 := by
  rcases BitVec.eq_zero_or_eq_one x with h | h <;> subst h <;> decide
theorem and1l (x : BitVec 1) : IntOp.andi (1#1) x = x := by
  rcases BitVec.eq_zero_or_eq_one x with h | h <;> subst h <;> decide
theorem or0l (x : BitVec 1) : IntOp.ori (0#1) x = x := by
  rcases BitVec.eq_zero_or_eq_one x with h | h <;> subst h <;> decide
theorem or0r (x : BitVec 1) : IntOp.ori x (0#1) = x := by
  rcases BitVec.eq_zero_or_eq_one x with h | h <;> subst h <;> decide

/-- Comparisons between the literal step words. -/
theorem lit11 : IntOp.cmpi .eq (1#32) (1#32) = 1#1 := (eq_small 1 1 (by norm_num) (by norm_num)).trans (if_pos rfl)
theorem lit1m : IntOp.cmpi .eq (1#32) (4294967295#32) = 0#1 :=
  (eq_small 1 4294967295 (by norm_num) (by norm_num)).trans (if_neg (by norm_num))
theorem litm1 : IntOp.cmpi .eq (4294967295#32) (1#32) = 0#1 :=
  (eq_small 4294967295 1 (by norm_num) (by norm_num)).trans (if_neg (by norm_num))
theorem litmm : IntOp.cmpi .eq (4294967295#32) (4294967295#32) = 1#1 :=
  (eq_small 4294967295 4294967295 (by norm_num) (by norm_num)).trans (if_pos rfl)
theorem lit01 : IntOp.cmpi .eq (0#32) (1#32) = 0#1 := (eq_small 0 1 (by norm_num) (by norm_num)).trans (if_neg (by norm_num))
theorem lit0m : IntOp.cmpi .eq (0#32) (4294967295#32) = 0#1 :=
  (eq_small 0 4294967295 (by norm_num) (by norm_num)).trans (if_neg (by norm_num))

/-- The body's value is the rule `sel`: run by run the step words are literals and the diagonal flag is decided;
    what is left is the edge conditions on `h` and `w`, where both sides agree case by case. -/
theorem body_eq_sel (z : α) (g : Fin 4 → Fin 4 → α) (ch : Nat) (hch : ch < 768) (h w : Fin 4) :
    body z g (BitVec.ofNat 32 ch) h w = sel z g ch h w := by
  have hh := h.isLt
  have hw := w.isLt
  unfold body stage2 stage1 sel
  rw [dhW_val ch hch, dwW_val ch hch]
  simp only [sge_small ch 192 (by omega) (by norm_num), slt_small ch 384 (by omega) (by norm_num),
    eq_small h.val 3 (by omega) (by norm_num), eq_small h.val 0 (by omega) (by norm_num),
    eq_small w.val 3 (by omega) (by norm_num), eq_small w.val 0 (by omega) (by norm_num)]
  have hr : ch < 48 ∨ (48 ≤ ch ∧ ch < 96) ∨ (96 ≤ ch ∧ ch < 144) ∨ (144 ≤ ch ∧ ch < 192) ∨ (192 ≤ ch ∧ ch < 240)
      ∨ (240 ≤ ch ∧ ch < 288) ∨ (288 ≤ ch ∧ ch < 336) ∨ (336 ≤ ch ∧ ch < 384) ∨ 384 ≤ ch := by omega
  rcases hr with r | r | r | r | r | r | r | r | r <;>
  simp (disch := omega) only [if_pos, if_neg, lit11, lit1m, litm1, litmm, lit01, lit0m, and0l, and1l, or0l, or0r,
    select_one, select_zero, bit_or, select_ite] <;>
  (try (split_ifs <;> first | rfl | (exfalso; omega)))

end Cert.SpatialShift.Model
-- ==== Proof.KernelBody.lean ====
/-
  What the shift's body leaves in one output block.

  A block is (16, 12, 3584): sixteen segments (the 4 × 4 grid, segment = h·4 + w), the 12 values of m, and
  3584 lanes (56 values of t times the 64 values of c, lane = t'·64 + c). The body views the block as
  (4, 4, 12, 3584), computes per element the channel word  m·64 + (lane AND 63), the two step words and the
  diagonal flag from it, makes the two filled steps, and stores the result viewed back as (16, 12, 3584).
  Read at `(segment, m, lane)` this is the rule `sel` for channel `m·64 + lane % 64` at grid position
  `(segment / 4, segment % 4)`, over the sixteen segments' values at the same `(m, lane)`.
-/
import proofs.«147602_j49512382988369_2_alg».proof.Proof.Gen.KernelIdeal.Frame
import proofs.«147602_j49512382988369_2_alg».proof.Proof.KernelShifts
import proofs.«147602_j49512382988369_2_alg».proof.Proof.KernelModel
import Idealize.ShloMosaic.Lib.ValueIdx
import Idealize.ShloMosaic.Lib.Pipeline.Value

namespace Cert.SpatialShift.Kernel

open Idealize.ShloMosaic Idealize.ShloMosaic.ValueIdx Cert.KernelIdeal Cert.KernelIdeal.Gen
open Cert.SpatialShift Cert.SpatialShift.Model Cert.SpatialShift.Words

variable {F : FTy → Type} [FloatOps F]

/-- The fill value: the zero word read as a float. -/
abbrev fill (F : FTy → Type) [FloatOps F] : F .f32 := FloatOps.ofBits .f32 0x00000000#32

/-- The block viewed as the grid: position `(h, w)` is segment `h·4 + w`. -/
theorem grid_view (x0 : Vec F S16x12x3584 .f32) (h w : Fin 4) (mm : Fin 12) (l : Fin 3584) :
    k0_pay2 x0 (ix4 h w mm l) = x0 (ix3 (⟨h.val * 4 + w.val, by omega⟩ : Fin 16) mm l) := by
  unfold k0_pay2
  rw [shapeCast_self]
  exact shapeCast_apply x0 _ (ix4 h w mm l) (ix3 (⟨h.val * 4 + w.val, by omega⟩ : Fin 16) mm l) (by
    rewrite [Shape.rowMajor_val_three, Shape.rowMajor_val_four]
    show ((h.val * 4 + w.val) * 12 + mm.val) * 3584 + l.val = ((h.val * 4 + w.val) * 12 + mm.val) * 3584 + l.val
    rfl)

/-- The channel word at an element: `m·64 + lane % 64`, whatever the grid position. -/
theorem chan_at (h w : Fin 4) (mm : Fin 12) (l : Fin 3584) :
    k0_pay3 (ix4 h w mm l) = BitVec.ofNat 32 (mm.val * 64 + l.val % 64) := by
  unfold k0_pay3
  show IntOp.addi (IntOp.muli (iota .tc S4x4x12x3584 32 [2] _ (ix4 h w mm l)) 64#32)
      (IntOp.andi (iota .tc S4x4x12x3584 32 [3] _ (ix4 h w mm l)) 63#32) = _
  rw [iota_single_apply, iota_single_apply]
  exact chan_word mm.val l.val

/-- The two step words at an element are the model's, of the channel word there. -/
theorem dh_at (i : S4x4x12x3584.Idx) : k0_pay8 k0_pay4 k0_pay5 k0_pay6 k0_pay7 i = dhW (k0_pay3 i) := rfl
theorem dw_at (i : S4x4x12x3584.Idx) : k0_pay9 k0_pay3 i = dwW (k0_pay3 i) := rfl

/-- Stage one as a vector: the step along h chosen by `dh`. -/
def stageOneV (v2 : FVec F S4x4x12x3584 .f32) (dh : IVec S4x4x12x3584 32) : FVec F S4x4x12x3584 .f32 :=
  select (cmpi .eq dh (broadcast S4x4x12x3584 1#32))
    (concatenate S4x4x12x3584 0 [⟨S3x4x12x3584, extractStridedSlice S3x4x12x3584 ![1, 0, 0, 0] v2 slices_S4x4x12x3584_o1_0_0_0_S3x4x12x3584⟩, ⟨S1x4x12x3584, broadcast S1x4x12x3584 (fill F)⟩] concatenates_S3x4x12x3584_S1x4x12x3584_S4x4x12x3584_d0)
    (select (cmpi .eq dh (broadcast S4x4x12x3584 4294967295#32))
      (concatenate S4x4x12x3584 0 [⟨S1x4x12x3584, broadcast S1x4x12x3584 (fill F)⟩, ⟨S3x4x12x3584, extractStridedSlice S3x4x12x3584 ![0, 0, 0, 0] v2 slices_S4x4x12x3584_o0_0_0_0_S3x4x12x3584⟩] concatenates_S1x4x12x3584_S3x4x12x3584_S4x4x12x3584_d0)
      v2)

/-- Stage one at an element, when the step word there is `dhw`. -/
theorem stageOne_at (v2 : FVec F S4x4x12x3584 .f32) (dh : IVec S4x4x12x3584 32) (dhw : BitVec 32)
    (h w : Fin 4) (mm : Fin 12) (l : Fin 3584) (hdh : dh (ix4 h w mm l) = dhw) :
    stageOneV v2 dh (ix4 h w mm l) = stage1 (fill F) (fun a b => v2 (ix4 a b mm l)) dhw h w := by
  unfold stageOneV stage1
  show Scalar.select (IntOp.cmpi .eq (dh (ix4 h w mm l)) 1#32) (concatenate _ _ _ _ (ix4 h w mm l))
      (Scalar.select (IntOp.cmpi .eq (dh (ix4 h w mm l)) 4294967295#32) (concatenate _ _ _ _ (ix4 h w mm l)) (v2 (ix4 h w mm l))) = _
  rw [hdh, step_h_succ, step_h_pred]

/-- The two-stage result is stage two over stage one (the payload's own text, regrouped). -/
theorem pay11_eq (v2 : FVec F S4x4x12x3584 .f32) (dh dw : IVec S4x4x12x3584 32) :
    k0_pay11 v2 dh dw =
      select (cmpi .eq dw (broadcast S4x4x12x3584 1#32))
        (concatenate S4x4x12x3584 1 [⟨S4x3x12x3584, extractStridedSlice S4x3x12x3584 ![0, 1, 0, 0] (stageOneV v2 dh) slices_S4x4x12x3584_o0_1_0_0_S4x3x12x3584⟩, ⟨S4x1x12x3584, broadcast S4x1x12x3584 (fill F)⟩] concatenates_S4x3x12x3584_S4x1x12x3584_S4x4x12x3584_d1)
        (select (cmpi .eq dw (broadcast S4x4x12x3584 4294967295#32))
          (concatenate S4x4x12x3584 1 [⟨S4x1x12x3584, broadcast S4x1x12x3584 (fill F)⟩, ⟨S4x3x12x3584, extractStridedSlice S4x3x12x3584 ![0, 0, 0, 0] (stageOneV v2 dh) slices_S4x4x12x3584_o0_0_0_0_S4x3x12x3584⟩] concatenates_S4x1x12x3584_S4x3x12x3584_S4x4x12x3584_d1)
          (stageOneV v2 dh)) := rfl

/-- Stage two at an element, when the step words do not depend on the grid position. -/
theorem stageTwo_at (v2 : FVec F S4x4x12x3584 .f32) (dh dw : IVec S4x4x12x3584 32) (dhw dww : BitVec 32)
    (h w : Fin 4) (mm : Fin 12) (l : Fin 3584)
    (hdh : ∀ a b : Fin 4, dh (ix4 a b mm l) = dhw) (hdw : dw (ix4 h w mm l) = dww) :
    k0_pay11 v2 dh dw (ix4 h w mm l) = stage2 (fill F) (fun a b => v2 (ix4 a b mm l)) dhw dww h w := by
  rw [pay11_eq]
  unfold stage2
  show Scalar.select (IntOp.cmpi .eq (dw (ix4 h w mm l)) 1#32) (concatenate _ _ _ _ (ix4 h w mm l))
      (Scalar.select (IntOp.cmpi .eq (dw (ix4 h w mm l)) 4294967295#32) (concatenate _ _ _ _ (ix4 h w mm l))
        (stageOneV v2 dh (ix4 h w mm l))) = _
  rw [hdw, step_w_succ, step_w_pred, stageOne_at v2 dh dhw h w mm l (hdh h w)]
  congr 1
  · by_cases hx : w.val < 3
    · rw [dif_pos hx, dif_pos hx]; exact stageOne_at v2 dh dhw h _ mm l (hdh h _)
    · rw [dif_neg hx, dif_neg hx]
  · congr 1
    by_cases hx : 1 ≤ w.val
    · rw [dif_pos hx, dif_pos hx]; exact stageOne_at v2 dh dhw h _ mm l (hdh h _)
    · rw [dif_neg hx, dif_neg hx]

/-- The remaining flag payloads at an element (each is its own text read there). -/
theorem pay10_at (g : IVec S4x4x12x3584 32) (c : BitVec 32) (i : S4x4x12x3584.Idx) :
    k0_pay10 g c i = IntOp.andi (IntOp.cmpi .sge (g i) c) (IntOp.cmpi .slt (g i) 384#32) := rfl
theorem pay12_at (v3 dh : IVec S4x4x12x3584 32) (i : S4x4x12x3584.Idx) :
    k0_pay12 v3 dh i = IntOp.ori (IntOp.andi (IntOp.cmpi .eq (dh i) 1#32) (IntOp.cmpi .eq (v3 i) 3#32))
      (IntOp.andi (IntOp.cmpi .eq (dh i) 4294967295#32) (IntOp.cmpi .eq (v3 i) 0#32)) := rfl
theorem pay13_at (v4 dw : IVec S4x4x12x3584 32) (i : S4x4x12x3584.Idx) :
    k0_pay13 v4 dw i = IntOp.andi (IntOp.cmpi .eq (dw i) 1#32) (IntOp.cmpi .eq (v4 i) 3#32) := rfl
theorem pay14_at (dw : IVec S4x4x12x3584 32) (i : S4x4x12x3584.Idx) :
    k0_pay14 dw i = IntOp.cmpi .eq (dw i) 4294967295#32 := rfl

/-- The grid coordinates as words. -/
theorem row_word (h w : Fin 4) (mm : Fin 12) (l : Fin 3584) :
    iota .tc S4x4x12x3584 32 [0] iota_S4x4x12x3584_d0_w32 (ix4 h w mm l) = BitVec.ofNat 32 h.val :=
  iota_single_apply _ _ _ _ _ _
theorem col_word (h w : Fin 4) (mm : Fin 12) (l : Fin 3584) :
    iota .tc S4x4x12x3584 32 [1] iota_S4x4x12x3584_d1_w32 (ix4 h w mm l) = BitVec.ofNat 32 w.val :=
  iota_single_apply _ _ _ _ _ _

theorem zeros3 : (![0, 0, 0] : Fin 3 → Nat) = fun _ => 0 := funext fun a => by fin_cases a <;> rfl

/-- The stored value, before it is viewed back as (16, 12, 3584), at grid position `(h, w)`. -/
theorem stored_at (x0 : Vec F S16x12x3584 .f32) (h w : Fin 4) (mm : Fin 12) (l : Fin 3584) :
    select (andi (k0_pay10 k0_pay3 192#32)
        (ori (k0_pay12 (iota .tc S4x4x12x3584 32 [0] iota_S4x4x12x3584_d0_w32) (k0_pay8 k0_pay4 k0_pay5 k0_pay6 k0_pay7))
          (ori (k0_pay13 (iota .tc S4x4x12x3584 32 [1] iota_S4x4x12x3584_d1_w32) (k0_pay9 k0_pay3))
            (andi (k0_pay14 (k0_pay9 k0_pay3))
              (cmpi .eq (iota .tc S4x4x12x3584 32 [1] iota_S4x4x12x3584_d1_w32) (broadcast S4x4x12x3584 0#32))))))
      (k0_pay2 x0) (k0_pay11 (k0_pay2 x0) (k0_pay8 k0_pay4 k0_pay5 k0_pay6 k0_pay7) (k0_pay9 k0_pay3)) (ix4 h w mm l)
    = body (fill F) (fun a b => x0 (ix3 (⟨a.val * 4 + b.val, by omega⟩ : Fin 16) mm l))
        (BitVec.ofNat 32 (mm.val * 64 + l.val % 64)) h w := by
  have hg : (fun a b : Fin 4 => k0_pay2 x0 (ix4 a b mm l))
      = (fun a b : Fin 4 => x0 (ix3 (⟨a.val * 4 + b.val, by omega⟩ : Fin 16) mm l)) :=
    funext fun a => funext fun b => grid_view x0 a b mm l
  have hdh : ∀ a b : Fin 4, k0_pay8 k0_pay4 k0_pay5 k0_pay6 k0_pay7 (ix4 a b mm l)
      = dhW (BitVec.ofNat 32 (mm.val * 64 + l.val % 64)) := fun a b => by rw [dh_at, chan_at]
  have hdw : k0_pay9 k0_pay3 (ix4 h w mm l) = dwW (BitVec.ofNat 32 (mm.val * 64 + l.val % 64)) := by
    rw [dw_at, chan_at]
  show Scalar.select
      (IntOp.andi (k0_pay10 k0_pay3 192#32 (ix4 h w mm l))
        (IntOp.ori (k0_pay12 _ _ (ix4 h w mm l))
          (IntOp.ori (k0_pay13 _ _ (ix4 h w mm l))
            (IntOp.andi (k0_pay14 _ (ix4 h w mm l))
              (IntOp.cmpi .eq (iota .tc S4x4x12x3584 32 [1] iota_S4x4x12x3584_d1_w32 (ix4 h w mm l)) 0#32)))))
      (k0_pay2 x0 (ix4 h w mm l)) (k0_pay11 _ _ _ (ix4 h w mm l)) = _
  rw [stageTwo_at (k0_pay2 x0) _ _ _ _ h w mm l hdh hdw, hg, pay10_at, pay12_at, pay13_at, pay14_at,
    hdh h w, hdw, chan_at, row_word, col_word, grid_view]
  rfl

/-- WHAT THE BODY LEAVES in the output block, element by element: the rule `sel` over the input block's
    sixteen segments at the same `(m, lane)`. -/
theorem block_value (x0 : Vec F S16x12x3584 .f32) (seg : Fin 16) (mm : Fin 12) (l : Fin 3584) :
    out0_1 x0 (ix3 seg mm l)
      = sel (fill F) (fun a b => x0 (ix3 (⟨a.val * 4 + b.val, by omega⟩ : Fin 16) mm l)) (mm.val * 64 + l.val % 64)
          ⟨seg.val / 4, by omega⟩ ⟨seg.val % 4, by omega⟩ := by
  have hch : mm.val * 64 + l.val % 64 < 768 := by omega
  rw [← body_eq_sel (fill F) _ _ hch]
  unfold out0_1
  rw [View.canon_unit_zero zeros3]
  simp only [View.ld_unit_zero (S := S16x12x3584) zeros3]
  unfold k0_pay1
  refine (shapeCast_apply _ _ (ix3 seg mm l)
    (ix4 (⟨seg.val / 4, by omega⟩ : Fin 4) (⟨seg.val % 4, by omega⟩ : Fin 4) mm l) (by
      rewrite [Shape.rowMajor_val_four, Shape.rowMajor_val_three]
      show ((seg.val / 4 * 4 + seg.val % 4) * 12 + mm.val) * 3584 + l.val = (seg.val * 12 + mm.val) * 3584 + l.val
      have e : seg.val / 4 * 4 + seg.val % 4 = seg.val := by omega
      rw [e])).trans ?_
  exact stored_at x0 _ _ mm l

end Cert.SpatialShift.Kernel
-- ==== Proof.SpecFlat.lean ====
/-
  The shift on the array with its last two axes merged.

  The region sees the array as (n, m, L) with L = t·64 + c (784·64 = 50176 lanes per row): a reshape before
  the region merges (t, c) and one after it splits them again. On the merged array the rule is the same, with
  the channel read as  m·64 + L % 64; viewed back through the two reshapes it is `shifted`.
-/
import proofs.«147602_j49512382988369_2_alg».proof.Proof.Spec
import Idealize.ShloMosaic.Lib.ValueIdx
import Idealize.ShloMosaic.Lib.Pipeline.Value

namespace Cert.SpatialShift

open Idealize.ShloMosaic Idealize.ShloMosaic.ValueIdx

variable {α : Type}

/-- `sel` respects equality of each of its arguments (the grid compared value by value). -/
theorem sel_congr {z : α} {g g' : Fin 4 → Fin 4 → α} {ch ch' : Nat} {h h' w w' : Fin 4}
    (hg : ∀ a b, g a b = g' a b) (hc : ch = ch') (hh : h = h') (hw : w = w') :
    sel z g ch h w = sel z g' ch' h' w' := by
  subst hc hh hw
  have : g = g' := funext fun a => funext fun b => hg a b
  subst this
  rfl

/-- The merged shape (n, m, t·64 + c). -/
abbrev SF : Shape := ⟨3, ![128, 12, 50176]⟩

/-- The shift on the merged array. -/
def shiftedFlat (z : α) (X : SF.Idx → α) : SF.Idx → α := fun i =>
  sel z (fun a b => X (ix3 (segRow (i 0) a b) (i 1) (i 2)))
    ((i 1).val * 64 + (i 2).val % 64)
    ⟨(i 0).val % 16 / 4, by omega⟩ ⟨(i 0).val % 4, by omega⟩

/-- Merging (t, c), shifting, and splitting again is `shifted`. -/
theorem split_shiftedFlat_merge (z : α) (x : SX.Idx → α) (h1 : SX.ShapeCasts SF) (h2 : SF.ShapeCasts SX) :
    shapeCast SX (shiftedFlat z (shapeCast SF x h1)) h2 = shifted z x := by
  funext i
  obtain ⟨n, mm, t, c, rfl⟩ : ∃ (n : Fin 128) (mm : Fin 12) (t : Fin 784) (c : Fin 64), i = ix4 n mm t c :=
    ⟨i 0, i 1, i 2, i 3, eq_ix4 i⟩
  have hn := n.isLt; have hm := mm.isLt; have ht := t.isLt; have hc := c.isLt
  refine (shapeCast_apply _ h2 (ix4 n mm t c) (ix3 n mm (⟨t.val * 64 + c.val, by omega⟩ : Fin 50176)) (by
    rewrite [Shape.rowMajor_val_three, Shape.rowMajor_val_four]
    show (n.val * 12 + mm.val) * 50176 + (t.val * 64 + c.val) = ((n.val * 12 + mm.val) * 784 + t.val) * 64 + c.val
    omega)).trans ?_
  unfold shiftedFlat shifted
  refine sel_congr (fun a b => ?_) ?_ rfl rfl
  · refine shapeCast_apply x h1 _ (ix4 (segRow n a b) mm t c) (by
      rewrite [Shape.rowMajor_val_four, Shape.rowMajor_val_three]
      show (((segRow n a b).val * 12 + mm.val) * 784 + t.val) * 64 + c.val
        = ((segRow n a b).val * 12 + mm.val) * 50176 + (t.val * 64 + c.val)
      omega)
  · show mm.val * 64 + (t.val * 64 + c.val) % 64 = mm.val * 64 + c.val
    omega

end Cert.SpatialShift
-- ==== Proof.KernelArray.lean ====
/-
  From blocks to the whole result.

  The region runs over the 8 × 14 grid of points (bi, ti); at a point the input window's block and the output
  window's block are both block (bi, 0, ti) of their (128, 12, 50176) arrays: rows bi·16 … bi·16+15, all of m,
  lanes ti·3584 … ti·3584+3583. A block holds exactly the sixteen segments of group bi, and 3584 = 56·64 is a
  whole number of t-values, so the rule `sel` never leaves the block: what a point writes back is the block of
  the merged shift (`shiftedFlat`) of the input array. The 112 blocks tile the output array, so after the run
  the array IS the merged shift of the input array; the input array is the argument with (t, c) merged by the
  reshape before the region, and the result is the output array split again by the reshape after it.
-/
import proofs.«147602_j49512382988369_2_alg».proof.Proof.Gen.KernelIdeal.Frame
import proofs.«147602_j49512382988369_2_alg».proof.Proof.KernelBody
import proofs.«147602_j49512382988369_2_alg».proof.Proof.SpecFlat
import Idealize.ShloMosaic.Lib.ValueIdx
import Idealize.ShloMosaic.Lib.Pipeline.Value
import Idealize.ShloMosaic.Lib.StableHlo.Run

set_option maxRecDepth 16384

noncomputable section

namespace Cert.SpatialShift.Kernel

open Idealize.ShloMosaic Idealize.ShloMosaic.TcCoe Idealize.ShloMosaic.ValueIdx Idealize.SL.Sem
open Cert.KernelIdeal Cert.KernelIdeal.Gen Cert.SpatialShift
open Idealize.ShloMosaic.Pipeline (Dat)

variable {F : FTy → Type} [FloatOps F]
variable (m : (ℓ : Loc nD τ sig) → Buf (Elt F) ℓ) (ρ : Dev nD → PrngReg)

/-- The printed index maps, decided over the grid: the input window moves with the output window on every axis,
    and the output's block indices stay in their ranges (the middle one is always 0). -/
theorem idx_facts : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 7 ∧ win0_1.index t (1 : Fin 3) = 0 ∧ win0_1.index t (2 : Fin 3) ≤ 13 :=
  (by decide +kernel : ∀ t : Fin grid0.N, _)

/-- Every block (q0, 0, q2) of the output array is some point's. -/
theorem idx_onto : ∀ (q0 : Fin 8) (q2 : Fin 14), ∃ t : Fin cfg0.N, win0_1.index t = ![q0.val, 0, q2.val] :=
  (by decide +kernel : ∀ (q0 : Fin 8) (q2 : Fin 14), ∃ t : Fin grid0.N, win0_1.index t = ![q0.val, 0, q2.val])

/-- WHAT POINT `t` WRITES BACK is block `t` of the merged shift of the input array as the region finds it. -/
theorem flushed_eq (c : Dev nD) (t : Fin cfg0.N) :
    (dats m 0 c).flushed 1 t
      = ((cfg0.win 1).blk t).view.read (Elt F) (shiftedFlat (fill F) (V m c main_v0)) := by
  show (cfg0.win 1).cut (grid0.coords t) ((dats m 0 c).after 1 t) = _
  rw [after0_1]
  obtain ⟨e0, e1, e2, b0, b1, b2⟩ := idx_facts t
  funext j
  obtain ⟨seg, mm, l, rfl⟩ : ∃ (seg : Fin 16) (mm : Fin 12) (l : Fin 3584), j = ix3 seg mm l :=
    ⟨j 0, j 1, j 2, eq_ix3 j⟩
  have hs := seg.isLt; have hm := mm.isLt; have hl := l.isLt
  refine (block_value (iblk m c 0 t) seg mm l).trans ?_
  show sel (fill F) (fun a b => V m c main_v0
        (((cfg0.win 0).blk t).view.emb (ix3 (⟨a.val * 4 + b.val, by omega⟩ : Fin 16) mm l))) _ _ _
      = shiftedFlat (fill F) (V m c main_v0) (((cfg0.win 1).blk t).view.emb (ix3 seg mm l))
  unfold shiftedFlat
  refine sel_congr (fun a b => ?_) ?_ ?_ ?_
  · have ha := a.isLt; have hb := b.isLt
    refine congrArg (V m c main_v0) (funext fun ax => Fin.ext ?_)
    match ax with
    | ⟨0, _⟩ =>
      show win0_0.index t (0 : Fin 3) * 16 + 1 * (a.val * 4 + b.val)
        = (win0_1.index t (0 : Fin 3) * 16 + 1 * seg.val) / 16 * 16 + (a.val * 4 + b.val)
      omega
    | ⟨1, _⟩ =>
      show win0_0.index t (1 : Fin 3) * 12 + 1 * mm.val = win0_1.index t (1 : Fin 3) * 12 + 1 * mm.val
      omega
    | ⟨2, _⟩ =>
      show win0_0.index t (2 : Fin 3) * 3584 + 1 * l.val = win0_1.index t (2 : Fin 3) * 3584 + 1 * l.val
      omega
  · show mm.val * 64 + l.val % 64
      = (win0_1.index t (1 : Fin 3) * 12 + 1 * mm.val) * 64 + (win0_1.index t (2 : Fin 3) * 3584 + 1 * l.val) % 64
    omega
  · refine Fin.ext ?_
    show seg.val / 4 = (win0_1.index t (0 : Fin 3) * 16 + 1 * seg.val) % 16 / 4
    omega
  · refine Fin.ext ?_
    show seg.val % 4 = (win0_1.index t (0 : Fin 3) * 16 + 1 * seg.val) % 4
    omega

/-- An index of the output array is in point `t`'s block iff each coordinate is in the block's range. -/
theorem mem_blk (t : Fin cfg0.N) (i : S128x12x50176.Idx) :
    i ∈ ((cfg0.win 1).blk t).view.set ↔ ∀ a : Fin 3, win0_1.index t a * S16x12x3584.size a ≤ (i a).val
      ∧ (i a).val < win0_1.index t a * S16x12x3584.size a + S16x12x3584.size a := by
  show i ∈ ((View.whole main_v1).slice (win0_1.rect t)).set ↔ _
  rw [View.set_slice_whole, Rect.mem_set_unit]
  exact Iff.rfl

/-- THE COVER: every index of the output array is in the block of the point (row / 16, lane / 3584). -/
theorem cover (i : S128x12x50176.Idx) :
    ∃ t : Fin cfg0.N, (cfg0.win 1).flush t = true ∧ i ∈ ((cfg0.win 1).blk t).view.set := by
  have hi0 : (i 0).val < 128 := (i 0).isLt
  have hi1 : (i 1).val < 12 := (i 1).isLt
  have hi2 : (i 2).val < 50176 := (i 2).isLt
  obtain ⟨t, ht⟩ := idx_onto ⟨(i 0).val / 16, by omega⟩ ⟨(i 2).val / 3584, by omega⟩
  have q0 : win0_1.index t (0 : Fin 3) = (i 0).val / 16 := congrFun ht 0
  have q1 : win0_1.index t (1 : Fin 3) = 0 := congrFun ht 1
  have q2 : win0_1.index t (2 : Fin 3) = (i 2).val / 3584 := congrFun ht 2
  refine ⟨t, flush0_1 t, ?_⟩
  rw [mem_blk]
  intro a
  match a with
  | ⟨0, _⟩ =>
    show win0_1.index t (0 : Fin 3) * 16 ≤ (i 0).val ∧ (i 0).val < win0_1.index t (0 : Fin 3) * 16 + 16
    omega
  | ⟨1, _⟩ =>
    show win0_1.index t (1 : Fin 3) * 12 ≤ (i 1).val ∧ (i 1).val < win0_1.index t (1 : Fin 3) * 12 + 12
    omega
  | ⟨2, _⟩ =>
    show win0_1.index t (2 : Fin 3) * 3584 ≤ (i 2).val ∧ (i 2).val < win0_1.index t (2 : Fin 3) * 3584 + 3584
    omega

/-- THE OUTPUT ARRAY after the run: the merged shift of the input array as the region finds it. -/
theorem final (c : Dev nD) :
    (dats m 0 c).arrAt 1 cfg0.N = shiftedFlat (fill F) (V m c main_v0) :=
  (dats m 0 c).arrAt_eq_of_cover 1 (shiftedFlat (fill F) (V m c main_v0)) (fun t _ => flushed_eq m c t) cover

/-- The input array as the region finds it: the argument with (t, c) merged. -/
theorem entry_merged (c : Dev nD) :
    (V m c main_v0 : S128x12x50176.Idx → Elt F .f32)
      = shapeCast S128x12x50176 (m ((c : Thread nD τ).loc main_arg0)) shapeCasts_S128x12x784x64_S128x12x50176 := by
  show StableHlo.after hostOps0 (fun b => m (c, b)) (Proc.devRef .tc main_v0) = _
  after_results
  rfl

/-- The result buffer: the output array with (t, c) split again by the reshape after the region. -/
theorem result_split (c : Dev nD) :
    (Pipeline.afterTail₀ cfgs (dats m) 0 (V0 m) [hostOps1] c main_v2 : S128x12x784x64.Idx → Elt F .f32)
      = shapeCast S128x12x784x64 ((dats m 0 c).arrAt 1 cfg0.N) shapeCasts_S128x12x50176_S128x12x784x64 := by
  unfold Pipeline.afterTail₀
  show StableHlo.after hostOps1 _ (Proc.devRef .tc main_v2) = _
  after_results
  exact congrArg (fun X => shapeCast S128x12x784x64 X shapeCasts_S128x12x50176_S128x12x784x64)
    (Pipeline.withArrays_arr spec0 launch0.win.arr_inj c _ _ 1)

/-- The result is the shift of the argument. -/
theorem result_eq (c : Dev nD) :
    (Pipeline.afterTail₀ cfgs (dats m) 0 (V0 m) [hostOps1] c main_v2 : S128x12x784x64.Idx → Elt F .f32)
      = shifted (fill F) (m ((c : Thread nD τ).loc main_arg0)) := by
  rw [result_split, final, entry_merged]
  exact split_shiftedFlat_merge _ _ _ _

/-- THE RUN, READ: every weakly fair execution of the program terminates with the result buffer at the shift of the
    argument and the argument unchanged. -/
theorem run : θ_run defs (onTc (τ := τ) (main (F := F))) ⟨m, fun _ => 0, ρ⟩ fun r => ∀ c : Dev nD,
      r.2.mem ((c : Thread nD τ).loc main_v2) = shifted (fill F) (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.SpatialShift.Kernel

end
-- ==== Proof.LibScatterSet.lean ====
/-
  A scatter whose body returns the update ("set"), read at one index of the result.

  `Host.scatter d (fun _ b => b) x idx upd` is a left fold over the update indices, each step replacing one element of
  the array (or none, when the update falls outside). Three layers, each general:

  * a fold of such steps over any list, read at one place: the starting value where no step lands, and the value of the
    one step that lands there when there is exactly one (`foldl_set_miss`, `foldl_set_hit`);
  * the scatter itself, when every update index `j` lands at `φ j` for an injective `φ`: the update `upd j` at `φ j`,
    the operand away from `φ`'s range (`scatter_set_hit`, `scatter_set_miss`);
  * the window form, operand and updates of one rank, every update index `j` landing at `st + j` axis by axis: the
    result at `i` is `upd (i - st)` inside the window `st ≤ i < st + (update's size)` and the operand outside it
    (`scatter_set_window`).
-/
import Idealize.ShloMosaic.PureOps

namespace Cert.ScatterSet

open Idealize.ShloMosaic

/-! ## A fold of "set one place" steps, read at one place -/

section Fold

variable {ι κ α : Type}

/-- Where no step of the fold lands on `i`, the fold leaves `i`'s value alone. `g n` is the place step `n` writes
    (if any); `hm` says a step that does not write `i` leaves `i`'s value. -/
theorem foldl_set_miss (step : (ι → α) → κ → (ι → α)) (g : κ → Option ι)
    (hm : ∀ r n i, g n ≠ some i → step r n i = r i)
    (l : List κ) (x : ι → α) (i : ι) (h : ∀ n ∈ l, g n ≠ some i) :
    l.foldl step x i = x i := by
  induction l generalizing x with
  | nil => rfl
  | cons a l ih =>
    rw [List.foldl_cons, ih (step x a) (fun n hn => h n (List.mem_cons_of_mem a hn))]
    exact hm x a i (h a List.mem_cons_self)

/-- Where exactly one step `n0` of the fold lands on `i`, the fold's value at `i` is that step's value `v n0`.
    `hs` says a step that writes `i` puts `v n` there, whatever was there before. -/
theorem foldl_set_hit (step : (ι → α) → κ → (ι → α)) (g : κ → Option ι) (v : κ → α)
    (hs : ∀ r n i, g n = some i → step r n i = v n)
    (hm : ∀ r n i, g n ≠ some i → step r n i = r i)
    (l : List κ) (x : ι → α) (i : ι) (n0 : κ) (hmem : n0 ∈ l) (hland : g n0 = some i)
    (huniq : ∀ n ∈ l, g n = some i → n = n0) :
    l.foldl step x i = v n0 := by
  induction l generalizing x with
  | nil => cases hmem
  | cons a l ih =>
    rw [List.foldl_cons]
    by_cases hin : n0 ∈ l
    · exact ih (step x a) hin (fun n hn => huniq n (List.mem_cons_of_mem a hn))
    · have ha : a = n0 := by
        rcases List.mem_cons.1 hmem with h | h
        · exact h.symm
        · exact absurd h hin
      subst ha
      rw [foldl_set_miss step g hm l (step x a) i
        (fun n hn hg => hin (huniq n (List.mem_cons_of_mem a hn) hg ▸ hn))]
      exact hs x a i hland

end Fold

/-! ## The scatter with a "set" body -/

section Scatter

variable {α : Type} {s si u : Shape} {w : Nat}

/-- The operand's value survives at an index no update lands on. -/
theorem scatter_set_miss' (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  refine foldl_set_miss _ (fun n => d.resultIdx? (u.rowMajor.symm n) idx) ?_ _ x i (fun n _ => h _)
  intro r n i' hne
  dsimp only
  cases hres : d.resultIdx? (u.rowMajor.symm n) idx with
  | none => rfl
  | some i0 =>
    have : i' ≠ i0 := fun e => hne (by rw [hres, e])
    dsimp only
    rw [if_neg this]

/-- When every update index `j` lands at `φ j` and `φ` is injective, the result holds `upd j` at `φ j`. -/
theorem scatter_set_hit (d : ScatterDims s si u) (x : s.Idx → α) (idx : IVec si w) (upd : u.Idx → α)
    (φ : u.Idx → s.Idx) (hφ : ∀ j, d.resultIdx? j idx = some (φ j)) (hinj : Function.Injective φ) (j : u.Idx) :
    Host.scatter d (fun _ b => b) x idx upd (φ j) = upd j := by
  unfold Host.scatter
  refine (foldl_set_hit _ (fun n => d.resultIdx? (u.rowMajor.symm n) idx) (fun n => upd (u.rowMajor.symm n))
    ?_ ?_ (List.finRange u.numel) x (φ j) (u.rowMajor j) (List.mem_finRange _) ?_ ?_).trans ?_
  · intro r n i' he
    dsimp only
    cases hres : d.resultIdx? (u.rowMajor.symm n) idx with
    | none => rw [hres] at he; cases he
    | some i0 =>
      have : i' = i0 := by rw [hres] at he; exact (Option.some.inj he).symm
      dsimp only
      rw [if_pos this]
  · intro r n i' hne
    dsimp only
    cases hres : d.resultIdx? (u.rowMajor.symm n) idx with
    | none => rfl
    | some i0 =>
      have : i' ≠ i0 := fun e => hne (by rw [hres, e])
      dsimp only
      rw [if_neg this]
  · show d.resultIdx? (u.rowMajor.symm (u.rowMajor j)) idx = some (φ j)
    rw [Equiv.symm_apply_apply]; exact hφ j
  · intro n _ hn
    have hn' : d.resultIdx? (u.rowMajor.symm n) idx = some (φ j) := hn
    rw [hφ] at hn'
    have := hinj (Option.some.inj hn')
    rw [← this, Equiv.apply_symm_apply]
  · show upd (u.rowMajor.symm (u.rowMajor j)) = upd j
    rw [Equiv.symm_apply_apply]

/-- When every update index `j` lands at `φ j`, the operand's value survives away from `φ`'s range. -/
theorem scatter_set_miss (d : ScatterDims s si u) (x : s.Idx → α) (idx : IVec si w) (upd : u.Idx → α)
    (φ : u.Idx → s.Idx) (hφ : ∀ j, d.resultIdx? j idx = some (φ j)) (i : s.Idx) (h : ∀ j, φ j ≠ i) :
    Host.scatter d (fun _ b => b) x idx upd i = x i :=
  scatter_set_miss' d x idx upd i (fun j e => h j (by rw [hφ] at e; exact Option.some.inj e))

end Scatter

/-! ## The window form: operand and updates of one rank, the updates written as one block at `st` -/

section Window

variable {α : Type} {r : Nat} {ss us : Fin r → Nat} {si : Shape} {w : Nat}

/-- A scatter of a block: operand `⟨r, ss⟩`, updates `⟨r, us⟩`, every update index `j` starting at `st` (`hstart`) with
    window coordinate `j a` on every axis (`hwin`), the block inside the operand (`hfit`). The result at `i` is the
    update at `i - st` when `i` is in the block `st ≤ i < st + us`, and the operand's own value otherwise. -/
theorem scatter_set_window (d : ScatterDims ⟨r, ss⟩ si ⟨r, us⟩) (x : (⟨r, ss⟩ : Shape).Idx → α) (idx : IVec si w)
    (upd : (⟨r, us⟩ : Shape).Idx → α) (st : Fin r → Nat)
    (hstart : ∀ j a, d.start j idx a = (st a : Int)) (hwin : ∀ j a, d.window j a = (j a).val)
    (hfit : ∀ a, st a + us a ≤ ss a) (i : (⟨r, ss⟩ : Shape).Idx) :
    Host.scatter d (fun _ b => b) x idx upd i =
      if h : ∀ a, st a ≤ (i a).val ∧ (i a).val < st a + us a then
        upd (fun a => ⟨(i a).val - st a, by show (i a).val - st a < us a; have := h a; omega⟩)
      else x i := by
  have hj : ∀ (j : (⟨r, us⟩ : Shape).Idx) a, (j a).val < us a := fun j a => (j a).isLt
  let φ : (⟨r, us⟩ : Shape).Idx → (⟨r, ss⟩ : Shape).Idx := fun j a =>
    ⟨st a + (j a).val, by show st a + (j a).val < ss a; have := hfit a; have := hj j a; omega⟩
  have hφv : ∀ j a, ((φ j) a).val = st a + (j a).val := fun _ _ => rfl
  have hφ : ∀ j, d.resultIdx? j idx = some (φ j) := by
    intro j
    unfold ScatterDims.resultIdx?
    have hall : ∀ a, 0 ≤ d.start j idx a + d.window j a ∧
        d.start j idx a + d.window j a < (⟨r, ss⟩ : Shape).size a := by
      intro a
      rw [hstart, hwin]
      have := hfit a; have := hj j a
      refine ⟨by omega, ?_⟩
      show (st a : Int) + ((j a).val : Nat) < ((ss a : Nat) : Int)
      omega
    rw [dif_pos hall]
    congr 1
    funext a
    apply Fin.ext
    show (d.start j idx a + d.window j a).toNat = st a + (j a).val
    rw [hstart, hwin]
    omega
  have hinj : Function.Injective φ := by
    intro j j' e
    funext a
    have := congrArg (fun k => (k a).val) e
    apply Fin.ext
    simp only [hφv] at this
    omega
  by_cases h : ∀ a, st a ≤ (i a).val ∧ (i a).val < st a + us a
  · rw [dif_pos h]
    have hi : i = φ (fun a => ⟨(i a).val - st a, by show (i a).val - st a < us a; have := h a; omega⟩) := by
      funext a; apply Fin.ext; show (i a).val = st a + ((i a).val - st a); have := h a; omega
    conv_lhs => rw [hi]
    exact scatter_set_hit d x idx upd φ hφ hinj _
  · rw [dif_neg h]
    refine scatter_set_miss d x idx upd φ hφ i (fun j e => h (fun a => ?_))
    have := congrArg (fun k => (k a).val) e
    simp only [hφv] at this
    have := hj j a
    omega

end Window

end Cert.ScatterSet
-- ==== Proof.RefScatter.lean ====
/-
  The reference's window writes, read at an index.

  Each `.at[…].set(…)` of the reference is a scatter of a five-axis block into the array viewed as
  (b, h, w, ch, t) = [8, 4, 4, 768, 784], the block's start read off a small vector of integers. `block5` reads such a
  scatter at coordinates: inside the block the update, outside it the operand. The four shape records the reference
  uses differ only in which axes the start vector names; for each, the window coordinate of an update index is the index
  itself and the start is the vector's entry on a named axis and zero elsewhere.
-/
import proofs.«147602_j49512382988369_2_alg».proof.Proof.Gen.ReferenceIdeal.Read
import proofs.«147602_j49512382988369_2_alg».proof.Proof.LibScatterSet
import Idealize.ShloMosaic.Lib.ValueIdx

namespace Cert.SpatialShift.Ref

open Idealize.ShloMosaic Idealize.ShloMosaic.ValueIdx Cert.ReferenceIdeal Cert.ReferenceIdeal.Gen Cert.ScatterSet

/-- A block written into the (b, h, w, ch, t) array at start `(0, s1, s2, s3, 0)`, the block whole along `b` and `t`:
    at `(b, h, w, ch, t)` the result is the update at `(b, h - s1, w - s2, ch - s3, t)` inside the block and the
    operand's value outside it. -/
theorem block5 {α : Type} {si : Shape} {m1 m2 m3 : Nat}
    (d : ScatterDims S8x4x4x768x784 si ⟨5, ![8, m1, m2, m3, 784]⟩)
    (x : S8x4x4x768x784.Idx → α) (idx : IVec si 32) (upd : (⟨5, ![8, m1, m2, m3, 784]⟩ : Shape).Idx → α)
    (s1 s2 s3 : Nat)
    (hwin : ∀ j (a : Fin 5), d.window j a = (j a).val)
    (hst : ∀ j (a : Fin 5), d.start j idx a = ((![0, s1, s2, s3, 0] : Fin 5 → Nat) a : Int))
    (hf1 : s1 + m1 ≤ 4) (hf2 : s2 + m2 ≤ 4) (hf3 : s3 + m3 ≤ 768)
    (b : Fin 8) (h w : Fin 4) (ch : Fin 768) (t : Fin 784) :
    Host.scatter d (fun _ b => b) x idx upd (ix5 b h w ch t) =
      if hc : (s1 ≤ h.val ∧ h.val < s1 + m1) ∧ (s2 ≤ w.val ∧ w.val < s2 + m2) ∧ (s3 ≤ ch.val ∧ ch.val < s3 + m3) then
        upd (ix5 b ⟨h.val - s1, by omega⟩ ⟨w.val - s2, by omega⟩ ⟨ch.val - s3, by omega⟩ t)
      else x (ix5 b h w ch t) := by
  refine (scatter_set_window d x idx upd ![0, s1, s2, s3, 0] hst hwin ?_ (ix5 b h w ch t)).trans ?_
  · intro a
    match a with
    | ⟨0, _⟩ => show 0 + 8 ≤ 8; omega
    | ⟨1, _⟩ => exact hf1
    | ⟨2, _⟩ => exact hf2
    | ⟨3, _⟩ => exact hf3
    | ⟨4, _⟩ => show 0 + 784 ≤ 784; omega
  · by_cases hc : (s1 ≤ h.val ∧ h.val < s1 + m1) ∧ (s2 ≤ w.val ∧ w.val < s2 + m2) ∧ (s3 ≤ ch.val ∧ ch.val < s3 + m3)
    · have hall : ∀ a : Fin 5, (![0, s1, s2, s3, 0] : Fin 5 → Nat) a ≤ ((ix5 b h w ch t) a).val ∧
          ((ix5 b h w ch t) a).val < (![0, s1, s2, s3, 0] : Fin 5 → Nat) a + (![8, m1, m2, m3, 784] : Fin 5 → Nat) a := by
        intro a
        match a with
        | ⟨0, _⟩ => exact ⟨Nat.zero_le _, by show b.val < 0 + 8; omega⟩
        | ⟨1, _⟩ => exact hc.1
        | ⟨2, _⟩ => exact hc.2.1
        | ⟨3, _⟩ => exact hc.2.2
        | ⟨4, _⟩ => exact ⟨Nat.zero_le _, by show t.val < 0 + 784; omega⟩
      rw [dif_pos hc]
      refine (dif_pos hall).trans (congrArg upd ?_)
      funext a
      match a with
      | ⟨0, _⟩ => rfl
      | ⟨1, _⟩ => rfl
      | ⟨2, _⟩ => rfl
      | ⟨3, _⟩ => rfl
      | ⟨4, _⟩ => rfl
    · rw [dif_neg hc]
      exact dif_neg (fun hall => hc ⟨hall 1, hall 2, hall 3⟩)

/-! ## The four shape records: window coordinates and starts -/

theorem win13 (j : S8x3x4x48x784.Idx) (a : Fin 5) : scatter_S8x4x4x768x784_S2_S8x3x4x48x784_01234_n_13_0.window j a = (j a).val := by
  match a with
  | ⟨0, _⟩ => rfl
  | ⟨1, _⟩ => rfl
  | ⟨2, _⟩ => rfl
  | ⟨3, _⟩ => rfl
  | ⟨4, _⟩ => rfl

theorem win23 (j : S8x4x3x48x784.Idx) (a : Fin 5) : scatter_S8x4x4x768x784_S2_S8x4x3x48x784_01234_n_23_0.window j a = (j a).val := by
  match a with
  | ⟨0, _⟩ => rfl
  | ⟨1, _⟩ => rfl
  | ⟨2, _⟩ => rfl
  | ⟨3, _⟩ => rfl
  | ⟨4, _⟩ => rfl

theorem win3 (j : S8x4x4x576x784.Idx) (a : Fin 5) : scatter_S8x4x4x768x784_S1_S8x4x4x576x784_01234_n_3_0.window j a = (j a).val := by
  match a with
  | ⟨0, _⟩ => rfl
  | ⟨1, _⟩ => rfl
  | ⟨2, _⟩ => rfl
  | ⟨3, _⟩ => rfl
  | ⟨4, _⟩ => rfl

theorem win123 (j : S8x3x3x48x784.Idx) (a : Fin 5) : scatter_S8x4x4x768x784_S3_S8x3x3x48x784_01234_n_123_0.window j a = (j a).val := by
  match a with
  | ⟨0, _⟩ => rfl
  | ⟨1, _⟩ => rfl
  | ⟨2, _⟩ => rfl
  | ⟨3, _⟩ => rfl
  | ⟨4, _⟩ => rfl

/-- On a named axis the start is the start vector's entry in that axis's position, read as a signed integer. -/
theorem start13_h (j : S8x3x4x48x784.Idx) (idx : IVec S2 32) : scatter_S8x4x4x768x784_S2_S8x3x4x48x784_01234_n_13_0.start j idx 1 = (idx (ix1 0)).toInt := by
  unfold ScatterDims.start
  rw [dif_pos (by decide)]
  refine congrArg (fun k => (idx k).toInt) ?_
  funext b
  match b with | ⟨0, _⟩ => rfl
theorem start13_ch (j : S8x3x4x48x784.Idx) (idx : IVec S2 32) : scatter_S8x4x4x768x784_S2_S8x3x4x48x784_01234_n_13_0.start j idx 3 = (idx (ix1 1)).toInt := by
  unfold ScatterDims.start
  rw [dif_pos (by decide)]
  refine congrArg (fun k => (idx k).toInt) ?_
  funext b
  match b with | ⟨0, _⟩ => rfl
theorem start23_w (j : S8x4x3x48x784.Idx) (idx : IVec S2 32) : scatter_S8x4x4x768x784_S2_S8x4x3x48x784_01234_n_23_0.start j idx 2 = (idx (ix1 0)).toInt := by
  unfold ScatterDims.start
  rw [dif_pos (by decide)]
  refine congrArg (fun k => (idx k).toInt) ?_
  funext b
  match b with | ⟨0, _⟩ => rfl
theorem start23_ch (j : S8x4x3x48x784.Idx) (idx : IVec S2 32) : scatter_S8x4x4x768x784_S2_S8x4x3x48x784_01234_n_23_0.start j idx 3 = (idx (ix1 1)).toInt := by
  unfold ScatterDims.start
  rw [dif_pos (by decide)]
  refine congrArg (fun k => (idx k).toInt) ?_
  funext b
  match b with | ⟨0, _⟩ => rfl
theorem start3_ch (j : S8x4x4x576x784.Idx) (idx : IVec S1 32) : scatter_S8x4x4x768x784_S1_S8x4x4x576x784_01234_n_3_0.start j idx 3 = (idx (ix1 0)).toInt := by
  unfold ScatterDims.start
  rw [dif_pos (by decide)]
  refine congrArg (fun k => (idx k).toInt) ?_
  funext b
  match b with | ⟨0, _⟩ => rfl
theorem start123_h (j : S8x3x3x48x784.Idx) (idx : IVec S3 32) : scatter_S8x4x4x768x784_S3_S8x3x3x48x784_01234_n_123_0.start j idx 1 = (idx (ix1 0)).toInt := by
  unfold ScatterDims.start
  rw [dif_pos (by decide)]
  refine congrArg (fun k => (idx k).toInt) ?_
  funext b
  match b with | ⟨0, _⟩ => rfl
theorem start123_w (j : S8x3x3x48x784.Idx) (idx : IVec S3 32) : scatter_S8x4x4x768x784_S3_S8x3x3x48x784_01234_n_123_0.start j idx 2 = (idx (ix1 1)).toInt := by
  unfold ScatterDims.start
  rw [dif_pos (by decide)]
  refine congrArg (fun k => (idx k).toInt) ?_
  funext b
  match b with | ⟨0, _⟩ => rfl
theorem start123_ch (j : S8x3x3x48x784.Idx) (idx : IVec S3 32) : scatter_S8x4x4x768x784_S3_S8x3x3x48x784_01234_n_123_0.start j idx 3 = (idx (ix1 2)).toInt := by
  unfold ScatterDims.start
  rw [dif_pos (by decide)]
  refine congrArg (fun k => (idx k).toInt) ?_
  funext b
  match b with | ⟨0, _⟩ => rfl

/-- The start of the record that names `h` and `ch`: `(0, s1, 0, s3, 0)` when the vector holds `(s1, s3)`. -/
theorem start13 (idx : IVec S2 32) (s1 s3 : Nat) (h1 : (idx (ix1 0)).toInt = (s1 : Int)) (h3 : (idx (ix1 1)).toInt = (s3 : Int))
    (j : S8x3x4x48x784.Idx) (a : Fin 5) :
    scatter_S8x4x4x768x784_S2_S8x3x4x48x784_01234_n_13_0.start j idx a = ((![0, s1, 0, s3, 0] : Fin 5 → Nat) a : Int) := by
  match a with
  | ⟨0, _⟩ => rfl
  | ⟨1, _⟩ => exact (start13_h j idx).trans h1
  | ⟨2, _⟩ => rfl
  | ⟨3, _⟩ => exact (start13_ch j idx).trans h3
  | ⟨4, _⟩ => rfl

/-- The start of the record that names `w` and `ch`: `(0, 0, s2, s3, 0)` when the vector holds `(s2, s3)`. -/
theorem start23 (idx : IVec S2 32) (s2 s3 : Nat) (h2 : (idx (ix1 0)).toInt = (s2 : Int)) (h3 : (idx (ix1 1)).toInt = (s3 : Int))
    (j : S8x4x3x48x784.Idx) (a : Fin 5) :
    scatter_S8x4x4x768x784_S2_S8x4x3x48x784_01234_n_23_0.start j idx a = ((![0, 0, s2, s3, 0] : Fin 5 → Nat) a : Int) := by
  match a with
  | ⟨0, _⟩ => rfl
  | ⟨1, _⟩ => rfl
  | ⟨2, _⟩ => exact (start23_w j idx).trans h2
  | ⟨3, _⟩ => exact (start23_ch j idx).trans h3
  | ⟨4, _⟩ => rfl

/-- The start of the record that names `ch` only: `(0, 0, 0, s3, 0)` when the vector holds `(s3)`. -/
theorem start3 (idx : IVec S1 32) (s3 : Nat) (h3 : (idx (ix1 0)).toInt = (s3 : Int))
    (j : S8x4x4x576x784.Idx) (a : Fin 5) :
    scatter_S8x4x4x768x784_S1_S8x4x4x576x784_01234_n_3_0.start j idx a = ((![0, 0, 0, s3, 0] : Fin 5 → Nat) a : Int) := by
  match a with
  | ⟨0, _⟩ => rfl
  | ⟨1, _⟩ => rfl
  | ⟨2, _⟩ => rfl
  | ⟨3, _⟩ => exact (start3_ch j idx).trans h3
  | ⟨4, _⟩ => rfl

/-- The start of the record that names `h`, `w` and `ch`: `(0, s1, s2, s3, 0)` when the vector holds `(s1, s2, s3)`. -/
theorem start123 (idx : IVec S3 32) (s1 s2 s3 : Nat) (h1 : (idx (ix1 0)).toInt = (s1 : Int))
    (h2 : (idx (ix1 1)).toInt = (s2 : Int)) (h3 : (idx (ix1 2)).toInt = (s3 : Int))
    (j : S8x3x3x48x784.Idx) (a : Fin 5) :
    scatter_S8x4x4x768x784_S3_S8x3x3x48x784_01234_n_123_0.start j idx a = ((![0, s1, s2, s3, 0] : Fin 5 → Nat) a : Int) := by
  match a with
  | ⟨0, _⟩ => rfl
  | ⟨1, _⟩ => exact (start123_h j idx).trans h1
  | ⟨2, _⟩ => exact (start123_w j idx).trans h2
  | ⟨3, _⟩ => exact (start123_ch j idx).trans h3
  | ⟨4, _⟩ => rfl

end Cert.SpatialShift.Ref
-- ==== Proof.RefWrites.lean ====
/-
  The reference's nine window writes, each read at coordinates (b, h, w, ch, t) of the [8, 4, 4, 768, 784] array:
  inside its window a write takes the value of the input array (the reshaped argument, `val_main_v2`) at a
  neighbouring grid position, outside it the array keeps what the writes before left. The first write starts from the
  zero fill.
-/
import proofs.«147602_j49512382988369_2_alg».proof.Proof.RefScatter

namespace Cert.SpatialShift.Ref

open Idealize.ShloMosaic Idealize.ShloMosaic.ValueIdx Cert.ReferenceIdeal Cert.ReferenceIdeal.Gen Cert.ReferenceIdeal.Read

variable {F : FTy → Type} [FloatOps F]

/-- Two case distinctions on equivalent conditions, with equal values where the conditions hold and one common value
    where they fail, are equal. -/
theorem dite_iff {α : Type} {c c' : Prop} [Decidable c] [Decidable c'] (hcc : c ↔ c') (t : c → α) (t' : c' → α) (e : α)
    (ht : ∀ (hc : c) (hc' : c'), t hc = t' hc') : dite c t (fun _ => e) = dite c' t' (fun _ => e) := by
  by_cases hc : c
  · rw [dif_pos hc, dif_pos (hcc.1 hc)]; exact ht _ _
  · rw [dif_neg hc, dif_neg (fun hc' => hc (hcc.2 hc'))]

/-- The array the writes start from holds the zero word everywhere. -/
theorem v3_at (i : S8x4x4x768x784.Idx) : val_main_v3 (F := F) i = FloatOps.ofBits .f32 0x00000000#32 :=
  (val_main_v3_apply i).trans (val_main_cst_apply _)

/-- The write that makes channels 0–47 take the value one step down in `h`, read at `(b, h, w, ch, t)`. -/
theorem v8_at (x0 : FVec F S128x12x784x64 .f32) (b : Fin 8) (h w : Fin 4) (ch : Fin 768) (t : Fin 784) :
    val_main_v8 (F := F) x0 (ix5 b h w ch t) =
      if hc : h.val < 3 ∧ ch.val < 48 then val_main_v2 (F := F) x0 (ix5 b ⟨h.val + 1, by omega⟩ w ch t)
      else val_main_v3 (F := F) (ix5 b h w ch t) := by
  have hb := h.isLt; have wb := w.isLt; have cb := ch.isLt
  unfold val_main_v8
  refine (block5 scatter_S8x4x4x768x784_S2_S8x3x4x48x784_01234_n_13_0 (val_main_v3 (F := F)) (val_main_v7 (F := F)) (val_main_v4 (F := F) x0)
    0 0 0 win13 (start13 (val_main_v7 (F := F)) 0 0 rfl rfl) (by omega) (by omega) (by omega) b h w ch t).trans ?_
  refine dite_iff (by omega) _ _ _ (fun hc hc' => ?_)
  refine (val_main_v4_apply x0 _).trans (congrArg (val_main_v2 (F := F) x0) ?_)
  funext a
  match a with
  | ⟨0, _⟩ => rfl
  | ⟨1, _⟩ => exact Fin.ext (by show 1 + (h.val - 0) = h.val + 1; omega)
  | ⟨2, _⟩ => exact Fin.ext (by show (w.val - 0) = w.val; omega)
  | ⟨3, _⟩ => exact Fin.ext (by show (ch.val - 0) = ch.val; omega)
  | ⟨4, _⟩ => rfl

/-- The write that makes channels 48–95 take the value one step up in `h`, read at `(b, h, w, ch, t)`. -/
theorem v13_at (x0 : FVec F S128x12x784x64 .f32) (b : Fin 8) (h w : Fin 4) (ch : Fin 768) (t : Fin 784) :
    val_main_v13 (F := F) x0 (ix5 b h w ch t) =
      if hc : 1 ≤ h.val ∧ 48 ≤ ch.val ∧ ch.val < 96 then val_main_v2 (F := F) x0 (ix5 b ⟨h.val - 1, by omega⟩ w ch t)
      else val_main_v8 (F := F) x0 (ix5 b h w ch t) := by
  have hb := h.isLt; have wb := w.isLt; have cb := ch.isLt
  unfold val_main_v13
  refine (block5 scatter_S8x4x4x768x784_S2_S8x3x4x48x784_01234_n_13_0 (val_main_v8 (F := F) x0) (val_main_v12 (F := F)) (val_main_v9 (F := F) x0)
    1 0 48 win13 (start13 (val_main_v12 (F := F)) 1 48 rfl rfl) (by omega) (by omega) (by omega) b h w ch t).trans ?_
  refine dite_iff (by omega) _ _ _ (fun hc hc' => ?_)
  refine (val_main_v9_apply x0 _).trans (congrArg (val_main_v2 (F := F) x0) ?_)
  funext a
  match a with
  | ⟨0, _⟩ => rfl
  | ⟨1, _⟩ => exact Fin.ext (by show (h.val - 1) = h.val - 1; omega)
  | ⟨2, _⟩ => exact Fin.ext (by show (w.val - 0) = w.val; omega)
  | ⟨3, _⟩ => exact Fin.ext (by show 48 + (ch.val - 48) = ch.val; omega)
  | ⟨4, _⟩ => rfl

/-- The write that makes channels 96–143 take the value one step right in `w`, read at `(b, h, w, ch, t)`. -/
theorem v18_at (x0 : FVec F S128x12x784x64 .f32) (b : Fin 8) (h w : Fin 4) (ch : Fin 768) (t : Fin 784) :
    val_main_v18 (F := F) x0 (ix5 b h w ch t) =
      if hc : w.val < 3 ∧ 96 ≤ ch.val ∧ ch.val < 144 then val_main_v2 (F := F) x0 (ix5 b h ⟨w.val + 1, by omega⟩ ch t)
      else val_main_v13 (F := F) x0 (ix5 b h w ch t) := by
  have hb := h.isLt; have wb := w.isLt; have cb := ch.isLt
  unfold val_main_v18
  refine (block5 scatter_S8x4x4x768x784_S2_S8x4x3x48x784_01234_n_23_0 (val_main_v13 (F := F) x0) (val_main_v17 (F := F)) (val_main_v14 (F := F) x0)
    0 0 96 win23 (start23 (val_main_v17 (F := F)) 0 96 rfl rfl) (by omega) (by omega) (by omega) b h w ch t).trans ?_
  refine dite_iff (by omega) _ _ _ (fun hc hc' => ?_)
  refine (val_main_v14_apply x0 _).trans (congrArg (val_main_v2 (F := F) x0) ?_)
  funext a
  match a with
  | ⟨0, _⟩ => rfl
  | ⟨1, _⟩ => exact Fin.ext (by show (h.val - 0) = h.val; omega)
  | ⟨2, _⟩ => exact Fin.ext (by show 1 + (w.val - 0) = w.val + 1; omega)
  | ⟨3, _⟩ => exact Fin.ext (by show 96 + (ch.val - 96) = ch.val; omega)
  | ⟨4, _⟩ => rfl

/-- The write that makes channels 144–191 take the value one step left in `w`, read at `(b, h, w, ch, t)`. -/
theorem v23_at (x0 : FVec F S128x12x784x64 .f32) (b : Fin 8) (h w : Fin 4) (ch : Fin 768) (t : Fin 784) :
    val_main_v23 (F := F) x0 (ix5 b h w ch t) =
      if hc : 1 ≤ w.val ∧ 144 ≤ ch.val ∧ ch.val < 192 then val_main_v2 (F := F) x0 (ix5 b h ⟨w.val - 1, by omega⟩ ch t)
      else val_main_v18 (F := F) x0 (ix5 b h w ch t) := by
  have hb := h.isLt; have wb := w.isLt; have cb := ch.isLt
  unfold val_main_v23
  refine (block5 scatter_S8x4x4x768x784_S2_S8x4x3x48x784_01234_n_23_0 (val_main_v18 (F := F) x0) (val_main_v22 (F := F)) (val_main_v19 (F := F) x0)
    0 1 144 win23 (start23 (val_main_v22 (F := F)) 1 144 rfl rfl) (by omega) (by omega) (by omega) b h w ch t).trans ?_
  refine dite_iff (by omega) _ _ _ (fun hc hc' => ?_)
  refine (val_main_v19_apply x0 _).trans (congrArg (val_main_v2 (F := F) x0) ?_)
  funext a
  match a with
  | ⟨0, _⟩ => rfl
  | ⟨1, _⟩ => exact Fin.ext (by show (h.val - 0) = h.val; omega)
  | ⟨2, _⟩ => exact Fin.ext (by show (w.val - 1) = w.val - 1; omega)
  | ⟨3, _⟩ => exact Fin.ext (by show 144 + (ch.val - 144) = ch.val; omega)
  | ⟨4, _⟩ => rfl

/-- The write that makes channels from 192 on take the position's own value, read at `(b, h, w, ch, t)`. -/
theorem v26_at (x0 : FVec F S128x12x784x64 .f32) (b : Fin 8) (h w : Fin 4) (ch : Fin 768) (t : Fin 784) :
    val_main_v26 (F := F) x0 (ix5 b h w ch t) =
      if hc : 192 ≤ ch.val then val_main_v2 (F := F) x0 (ix5 b h w ch t)
      else val_main_v23 (F := F) x0 (ix5 b h w ch t) := by
  have hb := h.isLt; have wb := w.isLt; have cb := ch.isLt
  unfold val_main_v26
  refine (block5 scatter_S8x4x4x768x784_S1_S8x4x4x576x784_01234_n_3_0 (val_main_v23 (F := F) x0) (val_main_v25 (F := F)) (val_main_v24 (F := F) x0)
    0 0 192 win3 (start3 (val_main_v25 (F := F)) 192 rfl) (by omega) (by omega) (by omega) b h w ch t).trans ?_
  refine dite_iff (by omega) _ _ _ (fun hc hc' => ?_)
  refine (val_main_v24_apply x0 _).trans (congrArg (val_main_v2 (F := F) x0) ?_)
  funext a
  match a with
  | ⟨0, _⟩ => rfl
  | ⟨1, _⟩ => exact Fin.ext (by show (h.val - 0) = h.val; omega)
  | ⟨2, _⟩ => exact Fin.ext (by show (w.val - 0) = w.val; omega)
  | ⟨3, _⟩ => exact Fin.ext (by show 192 + (ch.val - 192) = ch.val; omega)
  | ⟨4, _⟩ => rfl

/-- The write that makes channels 192–239 take the up-left neighbour's value where there is one, read at `(b, h, w, ch, t)`. -/
theorem v32_at (x0 : FVec F S128x12x784x64 .f32) (b : Fin 8) (h w : Fin 4) (ch : Fin 768) (t : Fin 784) :
    val_main_v32 (F := F) x0 (ix5 b h w ch t) =
      if hc : 1 ≤ h.val ∧ 1 ≤ w.val ∧ 192 ≤ ch.val ∧ ch.val < 240 then val_main_v2 (F := F) x0 (ix5 b ⟨h.val - 1, by omega⟩ ⟨w.val - 1, by omega⟩ ch t)
      else val_main_v26 (F := F) x0 (ix5 b h w ch t) := by
  have hb := h.isLt; have wb := w.isLt; have cb := ch.isLt
  unfold val_main_v32
  refine (block5 scatter_S8x4x4x768x784_S3_S8x3x3x48x784_01234_n_123_0 (val_main_v26 (F := F) x0) (val_main_v31 (F := F)) (val_main_v27 (F := F) x0)
    1 1 192 win123 (start123 (val_main_v31 (F := F)) 1 1 192 rfl rfl rfl) (by omega) (by omega) (by omega) b h w ch t).trans ?_
  refine dite_iff (by omega) _ _ _ (fun hc hc' => ?_)
  refine (val_main_v27_apply x0 _).trans (congrArg (val_main_v2 (F := F) x0) ?_)
  funext a
  match a with
  | ⟨0, _⟩ => rfl
  | ⟨1, _⟩ => exact Fin.ext (by show (h.val - 1) = h.val - 1; omega)
  | ⟨2, _⟩ => exact Fin.ext (by show (w.val - 1) = w.val - 1; omega)
  | ⟨3, _⟩ => exact Fin.ext (by show 192 + (ch.val - 192) = ch.val; omega)
  | ⟨4, _⟩ => rfl

/-- The write that makes channels 240–287 take the down-right neighbour's value where there is one, read at `(b, h, w, ch, t)`. -/
theorem v38_at (x0 : FVec F S128x12x784x64 .f32) (b : Fin 8) (h w : Fin 4) (ch : Fin 768) (t : Fin 784) :
    val_main_v38 (F := F) x0 (ix5 b h w ch t) =
      if hc : h.val < 3 ∧ w.val < 3 ∧ 240 ≤ ch.val ∧ ch.val < 288 then val_main_v2 (F := F) x0 (ix5 b ⟨h.val + 1, by omega⟩ ⟨w.val + 1, by omega⟩ ch t)
      else val_main_v32 (F := F) x0 (ix5 b h w ch t) := by
  have hb := h.isLt; have wb := w.isLt; have cb := ch.isLt
  unfold val_main_v38
  refine (block5 scatter_S8x4x4x768x784_S3_S8x3x3x48x784_01234_n_123_0 (val_main_v32 (F := F) x0) (val_main_v37 (F := F)) (val_main_v33 (F := F) x0)
    0 0 240 win123 (start123 (val_main_v37 (F := F)) 0 0 240 rfl rfl rfl) (by omega) (by omega) (by omega) b h w ch t).trans ?_
  refine dite_iff (by omega) _ _ _ (fun hc hc' => ?_)
  refine (val_main_v33_apply x0 _).trans (congrArg (val_main_v2 (F := F) x0) ?_)
  funext a
  match a with
  | ⟨0, _⟩ => rfl
  | ⟨1, _⟩ => exact Fin.ext (by show 1 + (h.val - 0) = h.val + 1; omega)
  | ⟨2, _⟩ => exact Fin.ext (by show 1 + (w.val - 0) = w.val + 1; omega)
  | ⟨3, _⟩ => exact Fin.ext (by show 240 + (ch.val - 240) = ch.val; omega)
  | ⟨4, _⟩ => rfl

/-- The write that makes channels 288–335 take the up-right neighbour's value where there is one, read at `(b, h, w, ch, t)`. -/
theorem v44_at (x0 : FVec F S128x12x784x64 .f32) (b : Fin 8) (h w : Fin 4) (ch : Fin 768) (t : Fin 784) :
    val_main_v44 (F := F) x0 (ix5 b h w ch t) =
      if hc : 1 ≤ h.val ∧ w.val < 3 ∧ 288 ≤ ch.val ∧ ch.val < 336 then val_main_v2 (F := F) x0 (ix5 b ⟨h.val - 1, by omega⟩ ⟨w.val + 1, by omega⟩ ch t)
      else val_main_v38 (F := F) x0 (ix5 b h w ch t) := by
  have hb := h.isLt; have wb := w.isLt; have cb := ch.isLt
  unfold val_main_v44
  refine (block5 scatter_S8x4x4x768x784_S3_S8x3x3x48x784_01234_n_123_0 (val_main_v38 (F := F) x0) (val_main_v43 (F := F)) (val_main_v39 (F := F) x0)
    1 0 288 win123 (start123 (val_main_v43 (F := F)) 1 0 288 rfl rfl rfl) (by omega) (by omega) (by omega) b h w ch t).trans ?_
  refine dite_iff (by omega) _ _ _ (fun hc hc' => ?_)
  refine (val_main_v39_apply x0 _).trans (congrArg (val_main_v2 (F := F) x0) ?_)
  funext a
  match a with
  | ⟨0, _⟩ => rfl
  | ⟨1, _⟩ => exact Fin.ext (by show (h.val - 1) = h.val - 1; omega)
  | ⟨2, _⟩ => exact Fin.ext (by show 1 + (w.val - 0) = w.val + 1; omega)
  | ⟨3, _⟩ => exact Fin.ext (by show 288 + (ch.val - 288) = ch.val; omega)
  | ⟨4, _⟩ => rfl

/-- The write that makes channels 336–383 take the down-left neighbour's value where there is one, read at `(b, h, w, ch, t)`. -/
theorem v50_at (x0 : FVec F S128x12x784x64 .f32) (b : Fin 8) (h w : Fin 4) (ch : Fin 768) (t : Fin 784) :
    val_main_v50 (F := F) x0 (ix5 b h w ch t) =
      if hc : h.val < 3 ∧ 1 ≤ w.val ∧ 336 ≤ ch.val ∧ ch.val < 384 then val_main_v2 (F := F) x0 (ix5 b ⟨h.val + 1, by omega⟩ ⟨w.val - 1, by omega⟩ ch t)
      else val_main_v44 (F := F) x0 (ix5 b h w ch t) := by
  have hb := h.isLt; have wb := w.isLt; have cb := ch.isLt
  unfold val_main_v50
  refine (block5 scatter_S8x4x4x768x784_S3_S8x3x3x48x784_01234_n_123_0 (val_main_v44 (F := F) x0) (val_main_v49 (F := F)) (val_main_v45 (F := F) x0)
    0 1 336 win123 (start123 (val_main_v49 (F := F)) 0 1 336 rfl rfl rfl) (by omega) (by omega) (by omega) b h w ch t).trans ?_
  refine dite_iff (by omega) _ _ _ (fun hc hc' => ?_)
  refine (val_main_v45_apply x0 _).trans (congrArg (val_main_v2 (F := F) x0) ?_)
  funext a
  match a with
  | ⟨0, _⟩ => rfl
  | ⟨1, _⟩ => exact Fin.ext (by show 1 + (h.val - 0) = h.val + 1; omega)
  | ⟨2, _⟩ => exact Fin.ext (by show (w.val - 1) = w.val - 1; omega)
  | ⟨3, _⟩ => exact Fin.ext (by show 336 + (ch.val - 336) = ch.val; omega)
  | ⟨4, _⟩ => rfl

/-! ## Each write, inside and outside its window -/

/-- Inside its window, `val_main_v8` holds the neighbour's value. -/
theorem v8_in (x0 : FVec F S128x12x784x64 .f32) (b : Fin 8) (h w : Fin 4) (ch : Fin 768) (t : Fin 784)
    (hc : h.val < 3 ∧ ch.val < 48) :
    val_main_v8 (F := F) x0 (ix5 b h w ch t) =
      val_main_v2 (F := F) x0 (ix5 b ⟨h.val + 1, by omega⟩ w ch t) :=
  (v8_at x0 b h w ch t).trans (dif_pos hc)

/-- Outside its window, `val_main_v8` keeps what the writes before left. -/
theorem v8_out (x0 : FVec F S128x12x784x64 .f32) (b : Fin 8) (h w : Fin 4) (ch : Fin 768) (t : Fin 784)
    (hn : ¬(h.val < 3 ∧ ch.val < 48)) :
    val_main_v8 (F := F) x0 (ix5 b h w ch t) = val_main_v3 (F := F) (ix5 b h w ch t) :=
  (v8_at x0 b h w ch t).trans (dif_neg hn)

/-- Inside its window, `val_main_v13` holds the neighbour's value. -/
theorem v13_in (x0 : FVec F S128x12x784x64 .f32) (b : Fin 8) (h w : Fin 4) (ch : Fin 768) (t : Fin 784)
    (hc : 1 ≤ h.val ∧ 48 ≤ ch.val ∧ ch.val < 96) :
    val_main_v13 (F := F) x0 (ix5 b h w ch t) =
      val_main_v2 (F := F) x0 (ix5 b ⟨h.val - 1, by omega⟩ w ch t) :=
  (v13_at x0 b h w ch t).trans (dif_pos hc)

/-- Outside its window, `val_main_v13` keeps what the writes before left. -/
theorem v13_out (x0 : FVec F S128x12x784x64 .f32) (b : Fin 8) (h w : Fin 4) (ch : Fin 768) (t : Fin 784)
    (hn : ¬(1 ≤ h.val ∧ 48 ≤ ch.val ∧ ch.val < 96)) :
    val_main_v13 (F := F) x0 (ix5 b h w ch t) = val_main_v8 (F := F) x0 (ix5 b h w ch t) :=
  (v13_at x0 b h w ch t).trans (dif_neg hn)

/-- Inside its window, `val_main_v18` holds the neighbour's value. -/
theorem v18_in (x0 : FVec F S128x12x784x64 .f32) (b : Fin 8) (h w : Fin 4) (ch : Fin 768) (t : Fin 784)
    (hc : w.val < 3 ∧ 96 ≤ ch.val ∧ ch.val < 144) :
    val_main_v18 (F := F) x0 (ix5 b h w ch t) =
      val_main_v2 (F := F) x0 (ix5 b h ⟨w.val + 1, by omega⟩ ch t) :=
  (v18_at x0 b h w ch t).trans (dif_pos hc)

/-- Outside its window, `val_main_v18` keeps what the writes before left. -/
theorem v18_out (x0 : FVec F S128x12x784x64 .f32) (b : Fin 8) (h w : Fin 4) (ch : Fin 768) (t : Fin 784)
    (hn : ¬(w.val < 3 ∧ 96 ≤ ch.val ∧ ch.val < 144)) :
    val_main_v18 (F := F) x0 (ix5 b h w ch t) = val_main_v13 (F := F) x0 (ix5 b h w ch t) :=
  (v18_at x0 b h w ch t).trans (dif_neg hn)

/-- Inside its window, `val_main_v23` holds the neighbour's value. -/
theorem v23_in (x0 : FVec F S128x12x784x64 .f32) (b : Fin 8) (h w : Fin 4) (ch : Fin 768) (t : Fin 784)
    (hc : 1 ≤ w.val ∧ 144 ≤ ch.val ∧ ch.val < 192) :
    val_main_v23 (F := F) x0 (ix5 b h w ch t) =
      val_main_v2 (F := F) x0 (ix5 b h ⟨w.val - 1, by omega⟩ ch t) :=
  (v23_at x0 b h w ch t).trans (dif_pos hc)

/-- Outside its window, `val_main_v23` keeps what the writes before left. -/
theorem v23_out (x0 : FVec F S128x12x784x64 .f32) (b : Fin 8) (h w : Fin 4) (ch : Fin 768) (t : Fin 784)
    (hn : ¬(1 ≤ w.val ∧ 144 ≤ ch.val ∧ ch.val < 192)) :
    val_main_v23 (F := F) x0 (ix5 b h w ch t) = val_main_v18 (F := F) x0 (ix5 b h w ch t) :=
  (v23_at x0 b h w ch t).trans (dif_neg hn)

/-- Inside its window, `val_main_v26` holds the neighbour's value. -/
theorem v26_in (x0 : FVec F S128x12x784x64 .f32) (b : Fin 8) (h w : Fin 4) (ch : Fin 768) (t : Fin 784)
    (hc : 192 ≤ ch.val) :
    val_main_v26 (F := F) x0 (ix5 b h w ch t) =
      val_main_v2 (F := F) x0 (ix5 b h w ch t) :=
  (v26_at x0 b h w ch t).trans (dif_pos hc)

/-- Outside its window, `val_main_v26` keeps what the writes before left. -/
theorem v26_out (x0 : FVec F S128x12x784x64 .f32) (b : Fin 8) (h w : Fin 4) (ch : Fin 768) (t : Fin 784)
    (hn : ¬(192 ≤ ch.val)) :
    val_main_v26 (F := F) x0 (ix5 b h w ch t) = val_main_v23 (F := F) x0 (ix5 b h w ch t) :=
  (v26_at x0 b h w ch t).trans (dif_neg hn)

/-- Inside its window, `val_main_v32` holds the neighbour's value. -/
theorem v32_in (x0 : FVec F S128x12x784x64 .f32) (b : Fin 8) (h w : Fin 4) (ch : Fin 768) (t : Fin 784)
    (hc : 1 ≤ h.val ∧ 1 ≤ w.val ∧ 192 ≤ ch.val ∧ ch.val < 240) :
    val_main_v32 (F := F) x0 (ix5 b h w ch t) =
      val_main_v2 (F := F) x0 (ix5 b ⟨h.val - 1, by omega⟩ ⟨w.val - 1, by omega⟩ ch t) :=
  (v32_at x0 b h w ch t).trans (dif_pos hc)

/-- Outside its window, `val_main_v32` keeps what the writes before left. -/
theorem v32_out (x0 : FVec F S128x12x784x64 .f32) (b : Fin 8) (h w : Fin 4) (ch : Fin 768) (t : Fin 784)
    (hn : ¬(1 ≤ h.val ∧ 1 ≤ w.val ∧ 192 ≤ ch.val ∧ ch.val < 240)) :
    val_main_v32 (F := F) x0 (ix5 b h w ch t) = val_main_v26 (F := F) x0 (ix5 b h w ch t) :=
  (v32_at x0 b h w ch t).trans (dif_neg hn)

/-- Inside its window, `val_main_v38` holds the neighbour's value. -/
theorem v38_in (x0 : FVec F S128x12x784x64 .f32) (b : Fin 8) (h w : Fin 4) (ch : Fin 768) (t : Fin 784)
    (hc : h.val < 3 ∧ w.val < 3 ∧ 240 ≤ ch.val ∧ ch.val < 288) :
    val_main_v38 (F := F) x0 (ix5 b h w ch t) =
      val_main_v2 (F := F) x0 (ix5 b ⟨h.val + 1, by omega⟩ ⟨w.val + 1, by omega⟩ ch t) :=
  (v38_at x0 b h w ch t).trans (dif_pos hc)

/-- Outside its window, `val_main_v38` keeps what the writes before left. -/
theorem v38_out (x0 : FVec F S128x12x784x64 .f32) (b : Fin 8) (h w : Fin 4) (ch : Fin 768) (t : Fin 784)
    (hn : ¬(h.val < 3 ∧ w.val < 3 ∧ 240 ≤ ch.val ∧ ch.val < 288)) :
    val_main_v38 (F := F) x0 (ix5 b h w ch t) = val_main_v32 (F := F) x0 (ix5 b h w ch t) :=
  (v38_at x0 b h w ch t).trans (dif_neg hn)

/-- Inside its window, `val_main_v44` holds the neighbour's value. -/
theorem v44_in (x0 : FVec F S128x12x784x64 .f32) (b : Fin 8) (h w : Fin 4) (ch : Fin 768) (t : Fin 784)
    (hc : 1 ≤ h.val ∧ w.val < 3 ∧ 288 ≤ ch.val ∧ ch.val < 336) :
    val_main_v44 (F := F) x0 (ix5 b h w ch t) =
      val_main_v2 (F := F) x0 (ix5 b ⟨h.val - 1, by omega⟩ ⟨w.val + 1, by omega⟩ ch t) :=
  (v44_at x0 b h w ch t).trans (dif_pos hc)

/-- Outside its window, `val_main_v44` keeps what the writes before left. -/
theorem v44_out (x0 : FVec F S128x12x784x64 .f32) (b : Fin 8) (h w : Fin 4) (ch : Fin 768) (t : Fin 784)
    (hn : ¬(1 ≤ h.val ∧ w.val < 3 ∧ 288 ≤ ch.val ∧ ch.val < 336)) :
    val_main_v44 (F := F) x0 (ix5 b h w ch t) = val_main_v38 (F := F) x0 (ix5 b h w ch t) :=
  (v44_at x0 b h w ch t).trans (dif_neg hn)

/-- Inside its window, `val_main_v50` holds the neighbour's value. -/
theorem v50_in (x0 : FVec F S128x12x784x64 .f32) (b : Fin 8) (h w : Fin 4) (ch : Fin 768) (t : Fin 784)
    (hc : h.val < 3 ∧ 1 ≤ w.val ∧ 336 ≤ ch.val ∧ ch.val < 384) :
    val_main_v50 (F := F) x0 (ix5 b h w ch t) =
      val_main_v2 (F := F) x0 (ix5 b ⟨h.val + 1, by omega⟩ ⟨w.val - 1, by omega⟩ ch t) :=
  (v50_at x0 b h w ch t).trans (dif_pos hc)

/-- Outside its window, `val_main_v50` keeps what the writes before left. -/
theorem v50_out (x0 : FVec F S128x12x784x64 .f32) (b : Fin 8) (h w : Fin 4) (ch : Fin 768) (t : Fin 784)
    (hn : ¬(h.val < 3 ∧ 1 ≤ w.val ∧ 336 ≤ ch.val ∧ ch.val < 384)) :
    val_main_v50 (F := F) x0 (ix5 b h w ch t) = val_main_v44 (F := F) x0 (ix5 b h w ch t) :=
  (v50_at x0 b h w ch t).trans (dif_neg hn)

end Cert.SpatialShift.Ref
-- ==== Proof.RefValue.lean ====
/-
  The reference's result is the spatial shift.

  Read at (b, h, w, ch, t), the array after the nine window writes is the rule `sel` applied to the input array's grid
  at (b, ·, ·, ch, t). The reshapes and transposes before and after the writes only rename coordinates:
  row n = b·16 + h·4 + w and channel ch = m·64 + c. Together these give `shifted`.
-/
import proofs.«147602_j49512382988369_2_alg».proof.Proof.RefWrites
import proofs.«147602_j49512382988369_2_alg».proof.Proof.Spec

namespace Cert.SpatialShift.Ref

open Idealize.ShloMosaic Idealize.ShloMosaic.ValueIdx Cert.ReferenceIdeal Cert.ReferenceIdeal.Gen Cert.ReferenceIdeal.Read

variable {F : FTy → Type} [FloatOps F]

/-- After the nine writes the array holds, at `(b, h, w, ch, t)`, the rule `sel` for channel `ch` at grid position
    `(h, w)`, over the input array's grid at `(b, ·, ·, ch, t)`, with the zero word as the fill: for each run of
    channels, the later writes miss the channel, one write decides by the grid position, and where that one misses
    too the value is the one left before it (the fill, or the position's own value from the identity write). -/
theorem v50_sel (x0 : FVec F S128x12x784x64 .f32) (b : Fin 8) (h w : Fin 4) (ch : Fin 768) (t : Fin 784) :
    val_main_v50 (F := F) x0 (ix5 b h w ch t) =
      sel (FloatOps.ofBits (F := F) .f32 0x00000000#32)
        (fun h' w' => val_main_v2 (F := F) x0 (ix5 b h' w' ch t)) ch.val h w := by
  have hb := h.isLt; have wb := w.isLt; have cb := ch.isLt
  unfold sel
  by_cases c1 : ch.val < 48
  · rw [if_pos c1, v50_out x0 b h w ch t (by omega), v44_out x0 b h w ch t (by omega), v38_out x0 b h w ch t (by omega), v32_out x0 b h w ch t (by omega), v26_out x0 b h w ch t (by omega), v23_out x0 b h w ch t (by omega), v18_out x0 b h w ch t (by omega), v13_out x0 b h w ch t (by omega)]
    by_cases hh : h.val < 3
    · rw [dif_pos hh]; exact v8_in x0 b h w ch t ⟨hh, c1⟩
    · rw [dif_neg hh, v8_out x0 b h w ch t (by omega)]; exact v3_at _
  rw [if_neg c1]
  by_cases c2 : ch.val < 96
  · rw [if_pos c2, v50_out x0 b h w ch t (by omega), v44_out x0 b h w ch t (by omega), v38_out x0 b h w ch t (by omega), v32_out x0 b h w ch t (by omega), v26_out x0 b h w ch t (by omega), v23_out x0 b h w ch t (by omega), v18_out x0 b h w ch t (by omega)]
    by_cases hh : 1 ≤ h.val
    · rw [dif_pos hh]; exact v13_in x0 b h w ch t ⟨hh, by omega, c2⟩
    · rw [dif_neg hh, v13_out x0 b h w ch t (by omega), v8_out x0 b h w ch t (by omega)]; exact v3_at _
  rw [if_neg c2]
  by_cases c3 : ch.val < 144
  · rw [if_pos c3, v50_out x0 b h w ch t (by omega), v44_out x0 b h w ch t (by omega), v38_out x0 b h w ch t (by omega), v32_out x0 b h w ch t (by omega), v26_out x0 b h w ch t (by omega), v23_out x0 b h w ch t (by omega)]
    by_cases hw : w.val < 3
    · rw [dif_pos hw]; exact v18_in x0 b h w ch t ⟨hw, by omega, c3⟩
    · rw [dif_neg hw, v18_out x0 b h w ch t (by omega), v13_out x0 b h w ch t (by omega), v8_out x0 b h w ch t (by omega)]; exact v3_at _
  rw [if_neg c3]
  by_cases c4 : ch.val < 192
  · rw [if_pos c4, v50_out x0 b h w ch t (by omega), v44_out x0 b h w ch t (by omega), v38_out x0 b h w ch t (by omega), v32_out x0 b h w ch t (by omega), v26_out x0 b h w ch t (by omega)]
    by_cases hw : 1 ≤ w.val
    · rw [dif_pos hw]; exact v23_in x0 b h w ch t ⟨hw, by omega, c4⟩
    · rw [dif_neg hw, v23_out x0 b h w ch t (by omega), v18_out x0 b h w ch t (by omega), v13_out x0 b h w ch t (by omega), v8_out x0 b h w ch t (by omega)]; exact v3_at _
  rw [if_neg c4]
  by_cases c5 : ch.val < 240
  · rw [if_pos c5, v50_out x0 b h w ch t (by omega), v44_out x0 b h w ch t (by omega), v38_out x0 b h w ch t (by omega)]
    by_cases hq : 1 ≤ h.val ∧ 1 ≤ w.val
    · rw [dif_pos hq]; exact v32_in x0 b h w ch t ⟨hq.1, hq.2, by omega, c5⟩
    · rw [dif_neg hq, v32_out x0 b h w ch t (by omega)]; exact v26_in x0 b h w ch t (by omega)
  rw [if_neg c5]
  by_cases c6 : ch.val < 288
  · rw [if_pos c6, v50_out x0 b h w ch t (by omega), v44_out x0 b h w ch t (by omega)]
    by_cases hq : h.val < 3 ∧ w.val < 3
    · rw [dif_pos hq]; exact v38_in x0 b h w ch t ⟨hq.1, hq.2, by omega, c6⟩
    · rw [dif_neg hq, v38_out x0 b h w ch t (by omega), v32_out x0 b h w ch t (by omega)]; exact v26_in x0 b h w ch t (by omega)
  rw [if_neg c6]
  by_cases c7 : ch.val < 336
  · rw [if_pos c7, v50_out x0 b h w ch t (by omega)]
    by_cases hq : 1 ≤ h.val ∧ w.val < 3
    · rw [dif_pos hq]; exact v44_in x0 b h w ch t ⟨hq.1, hq.2, by omega, c7⟩
    · rw [dif_neg hq, v44_out x0 b h w ch t (by omega), v38_out x0 b h w ch t (by omega), v32_out x0 b h w ch t (by omega)]; exact v26_in x0 b h w ch t (by omega)
  rw [if_neg c7]
  by_cases c8 : ch.val < 384
  · rw [if_pos c8]
    by_cases hq : h.val < 3 ∧ 1 ≤ w.val
    · rw [dif_pos hq]; exact v50_in x0 b h w ch t ⟨hq.1, hq.2, by omega, c8⟩
    · rw [dif_neg hq, v50_out x0 b h w ch t (by omega), v44_out x0 b h w ch t (by omega), v38_out x0 b h w ch t (by omega), v32_out x0 b h w ch t (by omega)]; exact v26_in x0 b h w ch t (by omega)
  rw [if_neg c8, v50_out x0 b h w ch t (by omega), v44_out x0 b h w ch t (by omega), v38_out x0 b h w ch t (by omega), v32_out x0 b h w ch t (by omega)]
  exact v26_in x0 b h w ch t (by omega)

/-- The input array at `(b, h, w, ch, t)` is the argument at row `b·16 + h·4 + w`, head `ch / 64`, position `t`,
    component `ch % 64`. -/
theorem v2_at (x0 : FVec F S128x12x784x64 .f32) (b : Fin 8) (h w : Fin 4) (ch : Fin 768) (t : Fin 784) :
    val_main_v2 (F := F) x0 (ix5 b h w ch t) =
      x0 (ix4 ⟨b.val * 16 + (h.val * 4 + w.val), by omega⟩ ⟨ch.val / 64, by omega⟩ t ⟨ch.val % 64, by omega⟩) := by
  have bb := b.isLt; have hb := h.isLt; have wb := w.isLt; have cb := ch.isLt; have tb := t.isLt
  have e2 : idx_main_v2 (ix5 b h w ch t) =
      ix5 b (⟨h.val * 4 + w.val, by omega⟩ : Fin 16) (⟨ch.val / 64, by omega⟩ : Fin 12) (⟨ch.val % 64, by omega⟩ : Fin 64) t := by
    funext a
    match a with
    | ⟨0, _⟩ => exact Fin.ext (by show ((((b.val * 4 + h.val) * 4 + w.val) * 768 + ch.val) * 784 + t.val) / 9633792 = b.val; omega)
    | ⟨1, _⟩ => exact Fin.ext (by show ((((b.val * 4 + h.val) * 4 + w.val) * 768 + ch.val) * 784 + t.val) / 602112 % 16 = h.val * 4 + w.val; omega)
    | ⟨2, _⟩ => exact Fin.ext (by show ((((b.val * 4 + h.val) * 4 + w.val) * 768 + ch.val) * 784 + t.val) / 50176 % 12 = ch.val / 64; omega)
    | ⟨3, _⟩ => exact Fin.ext (by show ((((b.val * 4 + h.val) * 4 + w.val) * 768 + ch.val) * 784 + t.val) / 784 % 64 = ch.val % 64; omega)
    | ⟨4, _⟩ => exact Fin.ext (by show ((((b.val * 4 + h.val) * 4 + w.val) * 768 + ch.val) * 784 + t.val) % 784 = t.val; omega)
  have e1 : ∀ (a : Fin 8) (s : Fin 16) (m : Fin 12) (c : Fin 64) (t : Fin 784),
      idx_main_v1 (ix5 a s m c t) = ix5 a s m t c := by
    intro a s m c t
    funext k
    match k with
    | ⟨0, _⟩ => rfl
    | ⟨1, _⟩ => rfl
    | ⟨2, _⟩ => rfl
    | ⟨3, _⟩ => rfl
    | ⟨4, _⟩ => rfl
  have e0 : ∀ (a : Fin 8) (s : Fin 16) (m : Fin 12) (t : Fin 784) (c : Fin 64),
      idx_main_v0 (ix5 a s m t c) = ix4 (⟨a.val * 16 + s.val, by omega⟩ : Fin 128) m t c := by
    intro a s m t c
    have ab := a.isLt; have sb := s.isLt; have mb := m.isLt; have tb := t.isLt; have cb := c.isLt
    funext k
    match k with
    | ⟨0, _⟩ => exact Fin.ext (by show ((((a.val * 16 + s.val) * 12 + m.val) * 784 + t.val) * 64 + c.val) / 602112 = a.val * 16 + s.val; omega)
    | ⟨1, _⟩ => exact Fin.ext (by show ((((a.val * 16 + s.val) * 12 + m.val) * 784 + t.val) * 64 + c.val) / 50176 % 12 = m.val; omega)
    | ⟨2, _⟩ => exact Fin.ext (by show ((((a.val * 16 + s.val) * 12 + m.val) * 784 + t.val) * 64 + c.val) / 64 % 784 = t.val; omega)
    | ⟨3, _⟩ => exact Fin.ext (by show ((((a.val * 16 + s.val) * 12 + m.val) * 784 + t.val) * 64 + c.val) % 64 = c.val; omega)
  rw [val_main_v2_apply, e2, val_main_v1_apply, e1, val_main_v0_apply, e0]

/-- The result at `(n, m, t, c)` is the array after the writes at group `n / 16`, grid position
    `(n % 16 / 4, n % 4)`, channel `m·64 + c`, position `t`. -/
theorem v53_at (x0 : FVec F S128x12x784x64 .f32) (n : Fin 128) (m : Fin 12) (t : Fin 784) (c : Fin 64) :
    val_main_v53 (F := F) x0 (ix4 n m t c) =
      val_main_v50 (F := F) x0
        (ix5 (⟨n.val / 16, by omega⟩ : Fin 8) (⟨n.val % 16 / 4, by omega⟩ : Fin 4) (⟨n.val % 4, by omega⟩ : Fin 4)
          (⟨m.val * 64 + c.val, by omega⟩ : Fin 768) t) := by
  have nb := n.isLt; have mb := m.isLt; have tb := t.isLt; have cb := c.isLt
  have e53 : idx_main_v53 (ix4 n m t c) =
      ix5 (⟨n.val / 16, by omega⟩ : Fin 8) (⟨n.val % 16, by omega⟩ : Fin 16) m t c := by
    funext a
    match a with
    | ⟨0, _⟩ => exact Fin.ext (by show (((n.val * 12 + m.val) * 784 + t.val) * 64 + c.val) / 9633792 = n.val / 16; omega)
    | ⟨1, _⟩ => exact Fin.ext (by show (((n.val * 12 + m.val) * 784 + t.val) * 64 + c.val) / 602112 % 16 = n.val % 16; omega)
    | ⟨2, _⟩ => exact Fin.ext (by show (((n.val * 12 + m.val) * 784 + t.val) * 64 + c.val) / 50176 % 12 = m.val; omega)
    | ⟨3, _⟩ => exact Fin.ext (by show (((n.val * 12 + m.val) * 784 + t.val) * 64 + c.val) / 64 % 784 = t.val; omega)
    | ⟨4, _⟩ => exact Fin.ext (by show (((n.val * 12 + m.val) * 784 + t.val) * 64 + c.val) % 64 = c.val; omega)
  have e52 : ∀ (a : Fin 8) (s : Fin 16) (m : Fin 12) (t : Fin 784) (c : Fin 64),
      idx_main_v52 (ix5 a s m t c) = ix5 a s m c t := by
    intro a s m t c
    funext k
    match k with
    | ⟨0, _⟩ => rfl
    | ⟨1, _⟩ => rfl
    | ⟨2, _⟩ => rfl
    | ⟨3, _⟩ => rfl
    | ⟨4, _⟩ => rfl
  have e51 : ∀ (a : Fin 8) (s : Fin 16) (m : Fin 12) (c : Fin 64) (t : Fin 784),
      idx_main_v51 (ix5 a s m c t) =
        ix5 a (⟨s.val / 4, by omega⟩ : Fin 4) (⟨s.val % 4, by omega⟩ : Fin 4) (⟨m.val * 64 + c.val, by omega⟩ : Fin 768) t := by
    intro a s m c t
    have ab := a.isLt; have sb := s.isLt; have mb := m.isLt; have tb := t.isLt; have cb := c.isLt
    funext k
    match k with
    | ⟨0, _⟩ => exact Fin.ext (by show ((((a.val * 16 + s.val) * 12 + m.val) * 64 + c.val) * 784 + t.val) / 9633792 = a.val; omega)
    | ⟨1, _⟩ => exact Fin.ext (by show ((((a.val * 16 + s.val) * 12 + m.val) * 64 + c.val) * 784 + t.val) / 2408448 % 4 = s.val / 4; omega)
    | ⟨2, _⟩ => exact Fin.ext (by show ((((a.val * 16 + s.val) * 12 + m.val) * 64 + c.val) * 784 + t.val) / 602112 % 4 = s.val % 4; omega)
    | ⟨3, _⟩ => exact Fin.ext (by show ((((a.val * 16 + s.val) * 12 + m.val) * 64 + c.val) * 784 + t.val) / 784 % 768 = m.val * 64 + c.val; omega)
    | ⟨4, _⟩ => exact Fin.ext (by show ((((a.val * 16 + s.val) * 12 + m.val) * 64 + c.val) * 784 + t.val) % 784 = t.val; omega)
  rw [val_main_v53_apply, e53, val_main_v52_apply, e52, val_main_v51_apply, e51]
  refine congrArg (val_main_v50 (F := F) x0) ?_
  funext a
  match a with
  | ⟨0, _⟩ => rfl
  | ⟨1, _⟩ => rfl
  | ⟨2, _⟩ => exact Fin.ext (by show n.val % 16 % 4 = n.val % 4; omega)
  | ⟨3, _⟩ => rfl
  | ⟨4, _⟩ => rfl

/-- The reference computes the spatial shift of its argument, with the zero word as the fill. -/
theorem ref_eq (x : FVec F Cert.ReferenceIdeal.S128x12x784x64 .f32) :
    Cert.ReferenceIdeal.Read.val_main_v53 (F := F) x =
      Cert.SpatialShift.shifted (FloatOps.ofBits (F := F) .f32 0x00000000#32) x := by
  funext i
  obtain ⟨n, m, t, c, rfl⟩ : ∃ n m t c, i = ix4 n m t c := ⟨i 0, i 1, i 2, i 3, eq_ix4 i⟩
  have nb := n.isLt; have mb := m.isLt; have cb := c.isLt
  have hg : (fun (h' w' : Fin 4) => val_main_v2 (F := F) x
        (ix5 (⟨n.val / 16, by omega⟩ : Fin 8) h' w' (⟨m.val * 64 + c.val, by omega⟩ : Fin 768) t)) =
      fun h' w' => x (ix4 (segRow n h' w') m t c) := by
    funext h' w'
    rw [v2_at]
    refine congrArg x ?_
    funext a
    match a with
    | ⟨0, _⟩ => rfl
    | ⟨1, _⟩ => exact Fin.ext (by show (m.val * 64 + c.val) / 64 = m.val; omega)
    | ⟨2, _⟩ => rfl
    | ⟨3, _⟩ => exact Fin.ext (by show (m.val * 64 + c.val) % 64 = c.val; omega)
  rw [v53_at, v50_sel, hg]
  rfl

end Cert.SpatialShift.Ref
-- ==== Proof.lean ====
/-
  The spatial shift of a (128, 12, 784, 64) array: the kernel's result and the reference's result are one
  function of the argument.

  Rows come in 8 groups of 16 segments laid out as a 4 × 4 grid; a channel (m, c) is numbered m·64 + c. The
  first four runs of 48 channels are moved one grid step along h or w, zero-filled at the edge; the next four
  runs are moved one diagonal step and keep their own value where the step leaves the grid; the other channels
  are kept (Proof/Spec.lean: `sel`, `shifted`). No float arithmetic is involved: both programs only select
  among the argument's values and the zero word, so the equality holds for every extended-real argument and the
  precondition is not used.

  The kernel: the argument with (t, c) merged is cut into 8 × 14 blocks of sixteen segments by 56 t-values; on
  a block the body computes the channel number per lane with integer arithmetic, takes one filled step along h
  and one along w chosen by the channel's run, and restores the diagonal runs' edge values; block by block this
  is the rule (Proof/KernelWords, KernelModel, KernelShifts, KernelBody), the blocks tile the array, and the
  reshape after the region splits (t, c) again (Proof/SpecFlat, KernelArray).
  The reference: the argument viewed (b, h, w, m·64 + c, t), nine rectangular writes of shifted slices into a
  zero array, viewed back; each write read at an index gives the rule (Proof/LibScatterSet, RefScatter, RefWrites, RefValue).
  The three frames are the generated frame runs; the idealization changed nothing, so `preserves` is trivial.
-/
import proofs.«147602_j49512382988369_2_alg».proof.Defs
import proofs.«147602_j49512382988369_2_alg».proof.Proof.Gen.Kernel
import proofs.«147602_j49512382988369_2_alg».proof.Proof.Gen.Kernel.Skeleton
import proofs.«147602_j49512382988369_2_alg».proof.Proof.Gen.Kernel.Launch
import proofs.«147602_j49512382988369_2_alg».proof.Proof.Gen.Kernel.Points
import proofs.«147602_j49512382988369_2_alg».proof.Proof.Gen.Kernel.Frame
import proofs.«147602_j49512382988369_2_alg».proof.Proof.Gen.KernelIdeal
import proofs.«147602_j49512382988369_2_alg».proof.Proof.Gen.KernelIdeal.Skeleton
import proofs.«147602_j49512382988369_2_alg».proof.Proof.Gen.KernelIdeal.Launch
import proofs.«147602_j49512382988369_2_alg».proof.Proof.Gen.KernelIdeal.Points
import proofs.«147602_j49512382988369_2_alg».proof.Proof.Gen.KernelIdeal.Frame
import proofs.«147602_j49512382988369_2_alg».proof.Proof.Gen.ReferenceIdeal
import proofs.«147602_j49512382988369_2_alg».proof.Proof.Gen.ReferenceIdeal.Run
import proofs.«147602_j49512382988369_2_alg».proof.Proof.Gen.ReferenceIdeal.Read
import proofs.«147602_j49512382988369_2_alg».proof.Proof.Gen.Pre_finite_inputs
import proofs.«147602_j49512382988369_2_alg».proof.Proof.KernelArray
import proofs.«147602_j49512382988369_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the shift of the (agreeing) argument. -/
theorem algebraic : Cert.algebraic_KernelIdeal_ReferenceIdeal := by
  intro m ρ m' ρ' _ hagree
  refine ⟨_, Cert.SpatialShift.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.SpatialShift.Ref.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
